-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg6 : FVec F S4x64x64 .f32) (main_arg7 : FVec F S4x64 .f32) (main_arg8 : FVec F S64x10 .f32) (main_arg9 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4x64x64 .f32 := Host.absf main_arg6
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S4x64 .f32 := Host.absf main_arg7
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S64x10 .f32 := Host.absf main_arg8
  let main_cst_10 : FVec F S_ .f32 := constant S_ .f32 0x7F800000#32
  let main_v30 : FVec F S64x10 .f32 := broadcastInDim S64x10 ![] bcast_S_S64x10 main_cst_10
  let main_v31 : IVec S64x10 1 := cmpf .olt main_v29 main_v30
  let main_c_11 : IVec S_ 1 := constantI S_ 1 1#1
  let main_v32 : IVec S_ 1 := (fun x v => Host.reduce IntOp.andi x v reducesTo_S64x10_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S2x1600000 32) (main_arg2 : FVec F S1600000 .f32) (main_arg3 : IVec S100000 32) (main_arg4 : FVec F S128x64 .f32) (main_arg5 : FVec F S64 .f32) (main_arg6 : FVec F S4x64x64 .f32) (main_arg7 : FVec F S4x64 .f32) (main_arg8 : FVec F S64x10 .f32) (main_arg9 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S64x10 : Shape := ⟨2, ![64, 10]⟩
abbrev S10 : Shape := ⟨1, ![10]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S1x64x64 : Shape := ⟨3, ![1, 64, 64]⟩
abbrev S64x64 : Shape := ⟨2, ![64, 64]⟩
abbrev S256 : Shape := ⟨1, ![256]⟩
abbrev S100000x1 : Shape := ⟨2, ![100000, 1]⟩
abbrev S256x64 : Shape := ⟨2, ![256, 64]⟩
abbrev S256x1 : Shape := ⟨2, ![256, 1]⟩
abbrev S256x10 : Shape := ⟨2, ![256, 10]⟩
abbrev S1x10 : Shape := ⟨2, ![1, 10]⟩

abbrev nBuf : Space → Nat
  | .hbm => 202
  | .vmem => 28
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S128x64, .f32⟩
  | 5 => ⟨S64, .f32⟩
  | 6 => ⟨S4x64x64, .f32⟩
  | 7 => ⟨S4x64, .f32⟩
  | 8 => ⟨S64x10, .f32⟩
  | 9 => ⟨S10, .f32⟩
  | 10 => ⟨S1x1600000, .i32⟩
  | 11 => ⟨S1600000, .i32⟩
  | 12 => ⟨S1x1600000, .i32⟩
  | 13 => ⟨S1600000, .i32⟩
  | 14 => ⟨S100000, .i32⟩
  | 15 => ⟨S1700000, .i32⟩
  | 16 => ⟨S1700000, .i32⟩
  | 17 => ⟨S_, .f32⟩
  | 18 => ⟨S100000, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S1700000x1, .f32⟩
  | 56 => ⟨S100000x64, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x64, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S1x64x64, .f32⟩
  | 79 => ⟨S64x64, .f32⟩
  | 80 => ⟨S1x64, .f32⟩
  | 81 => ⟨S64, .f32⟩
  | 82 => ⟨S100000x64, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000x64, .f32⟩
  | 92 => ⟨S1700000x64, .f32⟩
  | 93 => ⟨S1700000x64, .f32⟩
  | 94 => ⟨S_, .f32⟩
  | 95 => ⟨S100000x64, .f32⟩
  | 96 => ⟨S1700000x1, .i32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S1x64x64, .f32⟩
  | 105 => ⟨S64x64, .f32⟩
  | 106 => ⟨S1x64, .f32⟩
  | 107 => ⟨S64, .f32⟩
  | 108 => ⟨S100000x64, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x64, .f32⟩
  | 118 => ⟨S1700000x64, .f32⟩
  | 119 => ⟨S1700000x64, .f32⟩
  | 120 => ⟨S_, .f32⟩
  | 121 => ⟨S100000x64, .f32⟩
  | 122 => ⟨S1700000x1, .i32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x128, .f32⟩

abbrev hbmTy0_1 (i : Nat) : BufTy := match i % 128 with
  | 0 => ⟨S100000x64, .f32⟩
  | 1 => ⟨S100000x64, .f32⟩
  | 2 => ⟨S1x64x64, .f32⟩
  | 3 => ⟨S64x64, .f32⟩
  | 4 => ⟨S1x64, .f32⟩
  | 5 => ⟨S64, .f32⟩
  | 6 => ⟨S100000x64, .f32⟩
  | 7 => ⟨S_, .i32⟩
  | 8 => ⟨S1700000, .i32⟩
  | 9 => ⟨S1700000, .i1⟩
  | 10 => ⟨S_, .i32⟩
  | 11 => ⟨S1700000, .i32⟩
  | 12 => ⟨S1700000, .i32⟩
  | 13 => ⟨S1700000, .i32⟩
  | 14 => ⟨S1700000x1, .i32⟩
  | 15 => ⟨S1700000x64, .f32⟩
  | 16 => ⟨S1700000x64, .f32⟩
  | 17 => ⟨S1700000x64, .f32⟩
  | 18 => ⟨S_, .f32⟩
  | 19 => ⟨S100000x64, .f32⟩
  | 20 => ⟨S1700000x1, .i32⟩
  | 21 => ⟨S100000x64, .f32⟩
  | 22 => ⟨S1x64, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S1x64x64, .f32⟩
  | 29 => ⟨S64x64, .f32⟩
  | 30 => ⟨S1x64, .f32⟩
  | 31 => ⟨S64, .f32⟩
  | 32 => ⟨S100000x64, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000x64, .f32⟩
  | 42 => ⟨S1700000x64, .f32⟩
  | 43 => ⟨S1700000x64, .f32⟩
  | 44 => ⟨S_, .f32⟩
  | 45 => ⟨S100000x64, .f32⟩
  | 46 => ⟨S1700000x1, .i32⟩
  | 47 => ⟨S100000x64, .f32⟩
  | 48 => ⟨S1x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S_, .f32⟩
  | 55 => ⟨S100000, .f32⟩
  | 56 => ⟨S_, .f32⟩
  | 57 => ⟨S256, .f32⟩
  | 58 => ⟨S100000x1, .i32⟩
  | 59 => ⟨S256, .f32⟩
  | 60 => ⟨S_, .f32⟩
  | 61 => ⟨S256x64, .f32⟩
  | 62 => ⟨S100000x1, .i32⟩
  | 63 => ⟨S256x64, .f32⟩
  | 64 => ⟨S_, .f32⟩
  | 65 => ⟨S256, .f32⟩
  | 66 => ⟨S256, .f32⟩
  | 67 => ⟨S256x1, .f32⟩
  | 68 => ⟨S256x64, .f32⟩
  | 69 => ⟨S256x64, .f32⟩
  | 70 => ⟨S256x10, .f32⟩
  | 71 => ⟨S1x10, .f32⟩
  | 72 => ⟨S256x10, .f32⟩
  | 73 => ⟨S256x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S256x64, .f32⟩
  | .local _ .vmem, ⟨26, _⟩ => ⟨S64x10, .f32⟩
  | .local _ .vmem, ⟨27, _⟩ => ⟨S256x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_12 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call2_cst : Ref sig .tc := ⟨.hbm, 101, rfl⟩
abbrev main_call2_v0 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_13 : Ref sig .tc := ⟨.hbm, 109, rfl⟩
abbrev main_v78 : Ref sig .tc := ⟨.hbm, 110, rfl⟩
abbrev main_v79 : Ref sig .tc := ⟨.hbm, 111, rfl⟩
abbrev main_c_14 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_15 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call3_cst : Ref sig .tc := ⟨.hbm, 127, rfl⟩
abbrev main_call3_v0 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_c_16 : Ref sig .tc := ⟨.hbm, 135, rfl⟩
abbrev main_v99 : Ref sig .tc := ⟨.hbm, 136, rfl⟩
abbrev main_v100 : Ref sig .tc := ⟨.hbm, 137, rfl⟩
abbrev main_c_17 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_18 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_call4_cst : Ref sig .tc := ⟨.hbm, 153, rfl⟩
abbrev main_call4_v0 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_c_19 : Ref sig .tc := ⟨.hbm, 161, rfl⟩
abbrev main_v120 : Ref sig .tc := ⟨.hbm, 162, rfl⟩
abbrev main_v121 : Ref sig .tc := ⟨.hbm, 163, rfl⟩
abbrev main_c_20 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_21 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_call5_cst : Ref sig .tc := ⟨.hbm, 179, rfl⟩
abbrev main_call5_v0 : Ref sig .tc := ⟨.hbm, 180, rfl⟩
abbrev main_v135 : Ref sig .tc := ⟨.hbm, 181, rfl⟩
abbrev main_cst_22 : Ref sig .tc := ⟨.hbm, 182, rfl⟩
abbrev main_v136 : Ref sig .tc := ⟨.hbm, 183, rfl⟩
abbrev main_cst_23 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_24 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_25 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg2_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem1_0 : DmaSem sig := 26
abbrev cc5_sem2_0 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S256x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S64x10 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256x10 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S256 : S_.BroadcastsInDim S256 (![] : Fin 0 → Fin S256.rank)
  bcast_S100000_S100000x1_0 : S100000.BroadcastsInDim S100000x1 (![0] : Fin 1 → Fin S100000x1.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x10_S64x10_0_0 : ∀ a, (![0, 0] : Fin 2 → Nat) a + S64x10.size a ≤ S64x10.size a
  h_S64x10 : 0 < S64x10.numel
  inb_S256x10_S256x10_0_0 : ∀ a, (![0, 0] : Fin 2 → Nat) a + S256x10.size a ≤ S256x10.size a
  h_S256x10 : 0 < S256x10.numel
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  scatter_S256_S100000x1_S100000_n_0_0_1_wf : ScatterDims.WF S256 S100000x1 S100000 [] [0] [0] 1
  scatter_S256x64_S100000x1_S100000x64_1_0_0_1_wf : ScatterDims.WF S256x64 S100000x1 S100000x64 [1] [0] [0] 1
  dot_S256x64_S64x10_S256x10_1_0_0_1_n_n_wf : DotDims.WF S256x64 S64x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S256x64.size a ≤ S256x64.size a
  hwx5_0 : ∀ i : grid5.Coords, EltTy.bits .f32 = 32 ∨ (Rect.block (s := S256x64) S256x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x10.size a ≤ S64x10.size a
  hwx5_1 : ∀ i : grid5.Coords, EltTy.bits .f32 = 32 ∨ (Rect.block (s := S64x10) S64x10.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S256x10.size a ≤ S256x10.size a
  hwx5_2 : ∀ i : grid5.Coords, EltTy.bits .f32 = 32 ∨ (Rect.block (s := S256x10) S256x10.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v72) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v93) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v95) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v98) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v114) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v116) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v119) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v147) S256x64.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x10.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v148) S256x10.size cc5_transform_2 reads5_2 true false 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S64x10 : Shape := ⟨2, ![64, 10]⟩
abbrev S10 : Shape := ⟨1, ![10]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1x64x64 : Shape := ⟨3, ![1, 64, 64]⟩
abbrev S64x64 : Shape := ⟨2, ![64, 64]⟩
abbrev S256 : Shape := ⟨1, ![256]⟩
abbrev S100000x1 : Shape := ⟨2, ![100000, 1]⟩
abbrev S256x64 : Shape := ⟨2, ![256, 64]⟩
abbrev S256x1 : Shape := ⟨2, ![256, 1]⟩
abbrev S256x10 : Shape := ⟨2, ![256, 10]⟩
abbrev S1x10 : Shape := ⟨2, ![1, 10]⟩

abbrev nBuf : Space → Nat
  | .hbm => 206
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S128x64, .f32⟩
  | 5 => ⟨S64, .f32⟩
  | 6 => ⟨S4x64x64, .f32⟩
  | 7 => ⟨S4x64, .f32⟩
  | 8 => ⟨S64x10, .f32⟩
  | 9 => ⟨S10, .f32⟩
  | 10 => ⟨S1x1600000, .i32⟩
  | 11 => ⟨S1600000, .i32⟩
  | 12 => ⟨S1x1600000, .i32⟩
  | 13 => ⟨S1600000, .i32⟩
  | 14 => ⟨S100000, .i32⟩
  | 15 => ⟨S1700000, .i32⟩
  | 16 => ⟨S1700000, .i32⟩
  | 17 => ⟨S_, .f32⟩
  | 18 => ⟨S100000, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x64, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S1700000x1, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S1x64x64, .f32⟩
  | 79 => ⟨S64x64, .f32⟩
  | 80 => ⟨S1x64, .f32⟩
  | 81 => ⟨S64, .f32⟩
  | 82 => ⟨S100000x64, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000x64, .f32⟩
  | 92 => ⟨S1700000x1, .f32⟩
  | 93 => ⟨S1700000x64, .f32⟩
  | 94 => ⟨S1700000x64, .f32⟩
  | 95 => ⟨S_, .f32⟩
  | 96 => ⟨S100000x64, .f32⟩
  | 97 => ⟨S1700000x1, .i32⟩
  | 98 => ⟨S100000x64, .f32⟩
  | 99 => ⟨S1x64, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S1x64x64, .f32⟩
  | 106 => ⟨S64x64, .f32⟩
  | 107 => ⟨S1x64, .f32⟩
  | 108 => ⟨S64, .f32⟩
  | 109 => ⟨S100000x64, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S1x64x64, .f32⟩
  | 5 => ⟨S64x64, .f32⟩
  | 6 => ⟨S1x64, .f32⟩
  | 7 => ⟨S64, .f32⟩
  | 8 => ⟨S100000x64, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S1700000x64, .f32⟩
  | 18 => ⟨S1700000x1, .f32⟩
  | 19 => ⟨S1700000x64, .f32⟩
  | 20 => ⟨S1700000x64, .f32⟩
  | 21 => ⟨S_, .f32⟩
  | 22 => ⟨S100000x64, .f32⟩
  | 23 => ⟨S1700000x1, .i32⟩
  | 24 => ⟨S100000x64, .f32⟩
  | 25 => ⟨S1x64, .f32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S1x64x64, .f32⟩
  | 32 => ⟨S64x64, .f32⟩
  | 33 => ⟨S1x64, .f32⟩
  | 34 => ⟨S64, .f32⟩
  | 35 => ⟨S100000x64, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000x64, .f32⟩
  | 45 => ⟨S1700000x1, .f32⟩
  | 46 => ⟨S1700000x64, .f32⟩
  | 47 => ⟨S1700000x64, .f32⟩
  | 48 => ⟨S_, .f32⟩
  | 49 => ⟨S100000x64, .f32⟩
  | 50 => ⟨S1700000x1, .i32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S_, .f32⟩
  | 59 => ⟨S100000, .f32⟩
  | 60 => ⟨S_, .f32⟩
  | 61 => ⟨S256, .f32⟩
  | 62 => ⟨S100000x1, .i32⟩
  | 63 => ⟨S256, .f32⟩
  | 64 => ⟨S_, .f32⟩
  | 65 => ⟨S256x64, .f32⟩
  | 66 => ⟨S100000x1, .i32⟩
  | 67 => ⟨S256x64, .f32⟩
  | 68 => ⟨S_, .f32⟩
  | 69 => ⟨S256, .f32⟩
  | 70 => ⟨S256, .f32⟩
  | 71 => ⟨S256x1, .f32⟩
  | 72 => ⟨S256x64, .f32⟩
  | 73 => ⟨S256x64, .f32⟩
  | 74 => ⟨S256x10, .f32⟩
  | 75 => ⟨S1x10, .f32⟩
  | 76 => ⟨S256x10, .f32⟩
  | 77 => ⟨S256x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_call2_cst : Ref sig .tc := ⟨.hbm, 102, rfl⟩
abbrev main_call2_v0 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_13 : Ref sig .tc := ⟨.hbm, 110, rfl⟩
abbrev main_v79 : Ref sig .tc := ⟨.hbm, 111, rfl⟩
abbrev main_v80 : Ref sig .tc := ⟨.hbm, 112, rfl⟩
abbrev main_c_14 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_15 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_c_16 : Ref sig .tc := ⟨.hbm, 137, rfl⟩
abbrev main_v101 : Ref sig .tc := ⟨.hbm, 138, rfl⟩
abbrev main_v102 : Ref sig .tc := ⟨.hbm, 139, rfl⟩
abbrev main_c_17 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_18 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_call4_cst : Ref sig .tc := ⟨.hbm, 156, rfl⟩
abbrev main_call4_v0 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_c_19 : Ref sig .tc := ⟨.hbm, 164, rfl⟩
abbrev main_v123 : Ref sig .tc := ⟨.hbm, 165, rfl⟩
abbrev main_v124 : Ref sig .tc := ⟨.hbm, 166, rfl⟩
abbrev main_c_20 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_21 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_call5_cst : Ref sig .tc := ⟨.hbm, 183, rfl⟩
abbrev main_call5_v0 : Ref sig .tc := ⟨.hbm, 184, rfl⟩
abbrev main_v139 : Ref sig .tc := ⟨.hbm, 185, rfl⟩
abbrev main_cst_22 : Ref sig .tc := ⟨.hbm, 186, rfl⟩
abbrev main_v140 : Ref sig .tc := ⟨.hbm, 187, rfl⟩
abbrev main_cst_23 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_24 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_25 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S256 : S_.BroadcastsInDim S256 (![] : Fin 0 → Fin S256.rank)
  bcast_S100000_S100000x1_0 : S100000.BroadcastsInDim S100000x1 (![0] : Fin 1 → Fin S100000x1.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S256_S100000x1_S100000_n_0_0_1_wf : ScatterDims.WF S256 S100000x1 S100000 [] [0] [0] 1
  scatter_S256x64_S100000x1_S100000x64_1_0_0_1_wf : ScatterDims.WF S256x64 S100000x1 S100000x64 [1] [0] [0] 1
  dot_S256x64_S64x10_S256x10_1_0_0_1_n_n_wf : DotDims.WF S256x64 S64x10 S256x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

class Facts : Prop extends Facts₀ where

variable [Facts]
-- ==== Proof.KernelRun.lean ====
/-
  The kernel program's run with its result named: every weakly fair execution terminates, nothing faulting, with the
  result buffer at what the last boundary of the fold through the program's segments holds there, and the arguments as launched.
-/
import proofs.«116388_j87196426044065_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v151) = W25 m ρ c (Proc.devRef .tc main_v151)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v151 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c)⟩)

end Cert.KernelIdeal.KRun

end
-- ==== Proof.Spec.lean ====
/-
  The one function both programs meet in at every dense layer: the product of an `M × K` array and a `K × N` array of
  extended reals, entry `(r, c)` the sum over `k` of `h (r, k) · w (k, c)`. The kernel computes it block of rows by
  block of rows (each block holds the whole contracted axis), the reference as one `dot_general`; a change of float
  format is the identity on the extended reals, so the kernel's rounding of the operands to bf16 does not show.
-/
import Idealize.ShloMosaic.PureOps.Ideal
import Idealize.ShloMosaic.Lib.ValueIdx

noncomputable section

namespace Cert.Spec

open Idealize.ShloMosaic

/-- Rows of `h` times columns of `w`, over the extended reals. -/
def mm {M K N : Nat} (h : (⟨2, ![M, K]⟩ : Shape).Idx → EReal) (w : (⟨2, ![K, N]⟩ : Shape).Idx → EReal) :
    (⟨2, ![M, N]⟩ : Shape).Idx → EReal :=
  fun i => ∑ k : Fin K, h (ValueIdx.ix2 (⟨(i 0).val, (i 0).isLt⟩ : Fin M) k) * w (ValueIdx.ix2 k (⟨(i 1).val, (i 1).isLt⟩ : Fin N))

theorem mm_apply {M K N : Nat} (h : (⟨2, ![M, K]⟩ : Shape).Idx → EReal) (w : (⟨2, ![K, N]⟩ : Shape).Idx → EReal)
    (r : Fin M) (c : Fin N) :
    mm h w (ValueIdx.ix2 r c) = ∑ k : Fin K, h (ValueIdx.ix2 r k) * w (ValueIdx.ix2 k c) := rfl

end Cert.Spec

end
-- ==== Proof.RegionValPay.lean ====
/-
  Each dense layer's payload read at one entry. A layer multiplies a block of rows by the whole weight array into a
  zero accumulator, after rounding both operands to bf16; on the extended reals the rounding is the identity, so the
  entry at row `r` and column `q` is the sum over `k` of `x (r, k) · w (k, q)`. Three shapes occur:
  `5000 × 128` by `128 × 64` (the first layer), `5000 × 64` by `64 × 64` (the four middle layers, whose payloads are
  one term under four names), `256 × 64` by `64 × 10` (the last).
-/
import proofs.«116388_j87196426044065_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.RegionVal

open Idealize.ShloMosaic Idealize.ShloMosaic.TcCoe Idealize.SL.Sem Cert.KernelIdeal Cert.KernelIdeal.Gen
open Idealize.ShloMosaic.ValueIdx (ix2 eq_ix2)

/-! ## The product of a `5000 × 128` block and a `128 × 64` block -/

/-- The left operand's index at output index `i` and contraction index `q` keeps the output's row, -/
theorem lhsA_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- and has the contraction index as its column. -/
theorem lhsA_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's index has the contraction index as its row, -/
theorem rhsA_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- and keeps the output's column. -/
theorem rhsA_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matrix product into a zero accumulator, read at row `r` and column `q`: the sum over the contracted axis. -/
theorem mmA_apply (x : FVec Ideal S5000x128 .bf16) (w : FVec Ideal S128x64 .bf16) (r : Fin 5000) (q : Fin 64) :
    FloatOps.matmul dot_S5000x128_S128x64_S5000x64_1_0_0_1_n_n none x w (constant (F := Ideal) S5000x64 .f32 0x00000000#32) (ix2 r q)
      = ∑ k : Fin 128, x (ix2 r k) * w (ix2 k q) := by
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 r q) ((ValueIdx.contrEquiv1 dot_S5000x128_S128x64_S5000x64_1_0_0_1_n_n 128 rfl rfl).symm k) = ix2 r k := funext fun a => Fin.ext (by
    match a with
    | ⟨0, _⟩ => exact lhsA_row _ _
    | ⟨1, _⟩ => exact (lhsA_col _ _).trans hk)
  have er : dot_S5000x128_S128x64_S5000x64_1_0_0_1_n_n.rhsIdx (ix2 r q) ((ValueIdx.contrEquiv1 dot_S5000x128_S128x64_S5000x64_1_0_0_1_n_n 128 rfl rfl).symm k) = ix2 k q := funext fun a => Fin.ext (by
    match a with
    | ⟨0, _⟩ => exact (rhsA_row _ _).trans hk
    | ⟨1, _⟩ => exact rhsA_col _ _)
  rw [el, er]

/-- Layer 0's payload at row `r`, column `q`: rounding the operands to bf16 is the identity on the extended reals. -/
theorem pay0_apply (x : Vec Ideal S5000x128 .f32) (w : Vec Ideal S128x64 .f32) (r : Fin 5000) (q : Fin 64) :
    k0_pay1 (F := Ideal) x w (ix2 r q) = ∑ k : Fin 128, x (ix2 r k) * w (ix2 k q) := by
  unfold k0_pay1
  exact mmA_apply _ _ r q

/-! ## The product of a `5000 × 64` block and a `64 × 64` block -/

/-- The left operand's index at output index `i` and contraction index `q` keeps the output's row, -/
theorem lhsB_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- and has the contraction index as its column. -/
theorem lhsB_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's index has the contraction index as its row, -/
theorem rhsB_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- and keeps the output's column. -/
theorem rhsB_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The matrix product into a zero accumulator, read at row `r` and column `q`: the sum over the contracted axis. -/
theorem mmB_apply (x : FVec Ideal S5000x64 .bf16) (w : FVec Ideal S64x64 .bf16) (r : Fin 5000) (q : Fin 64) :
    FloatOps.matmul dot_S5000x64_S64x64_S5000x64_1_0_0_1_n_n none x w (constant (F := Ideal) S5000x64 .f32 0x00000000#32) (ix2 r q)
      = ∑ k : Fin 64, x (ix2 r k) * w (ix2 k q) := by
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 r q) ((ValueIdx.contrEquiv1 dot_S5000x64_S64x64_S5000x64_1_0_0_1_n_n 64 rfl rfl).symm k) = ix2 r k := funext fun a => Fin.ext (by
    match a with
    | ⟨0, _⟩ => exact lhsB_row _ _
    | ⟨1, _⟩ => exact (lhsB_col _ _).trans hk)
  have er : dot_S5000x64_S64x64_S5000x64_1_0_0_1_n_n.rhsIdx (ix2 r q) ((ValueIdx.contrEquiv1 dot_S5000x64_S64x64_S5000x64_1_0_0_1_n_n 64 rfl rfl).symm k) = ix2 k q := funext fun a => Fin.ext (by
    match a with
    | ⟨0, _⟩ => exact (rhsB_row _ _).trans hk
    | ⟨1, _⟩ => exact rhsB_col _ _)
  rw [el, er]

/-- Layer 1's payload at row `r`, column `q`: rounding the operands to bf16 is the identity on the extended reals, and so is a cast to the same shape. -/
theorem pay1_apply (x : Vec Ideal S5000x64 .f32) (w : Vec Ideal S64x64 .f32) (r : Fin 5000) (q : Fin 64) :
    k1_pay1 (F := Ideal) x w (ix2 r q) = ∑ k : Fin 64, x (ix2 r k) * w (ix2 k q) := by
  unfold k1_pay1
  simp only [shapeCast_self]
  exact mmB_apply _ _ r q

/-- Layer 2's payload at row `r`, column `q`: rounding the operands to bf16 is the identity on the extended reals, and so is a cast to the same shape. -/
theorem pay2_apply (x : Vec Ideal S5000x64 .f32) (w : Vec Ideal S64x64 .f32) (r : Fin 5000) (q : Fin 64) :
    k2_pay1 (F := Ideal) x w (ix2 r q) = ∑ k : Fin 64, x (ix2 r k) * w (ix2 k q) := by
  unfold k2_pay1
  simp only [shapeCast_self]
  exact mmB_apply _ _ r q

/-- Layer 3's payload at row `r`, column `q`: rounding the operands to bf16 is the identity on the extended reals, and so is a cast to the same shape. -/
theorem pay3_apply (x : Vec Ideal S5000x64 .f32) (w : Vec Ideal S64x64 .f32) (r : Fin 5000) (q : Fin 64) :
    k3_pay1 (F := Ideal) x w (ix2 r q) = ∑ k : Fin 64, x (ix2 r k) * w (ix2 k q) := by
  unfold k3_pay1
  simp only [shapeCast_self]
  exact mmB_apply _ _ r q

/-- Layer 4's payload at row `r`, column `q`: rounding the operands to bf16 is the identity on the extended reals, and so is a cast to the same shape. -/
theorem pay4_apply (x : Vec Ideal S5000x64 .f32) (w : Vec Ideal S64x64 .f32) (r : Fin 5000) (q : Fin 64) :
    k4_pay1 (F := Ideal) x w (ix2 r q) = ∑ k : Fin 64, x (ix2 r k) * w (ix2 k q) := by
  unfold k4_pay1
  simp only [shapeCast_self]
  exact mmB_apply _ _ r q

/-! ## The product of a `256 × 64` block and a `64 × 10` block -/

/-- The left operand's index at output index `i` and contraction index `q` keeps the output's row, -/
theorem lhsC_row (i : S256x10.Idx) (q : dot_S256x64_S64x10_S256x10_1_0_0_1_n_n.contr.Idx) :
    (dot_S256x64_S64x10_S256x10_1_0_0_1_n_n.lhsIdx i q 0).val = (i 0).val := by
  unfold DotDims.lhsIdx
  rw [dif_neg (show ¬(0 : Fin S256x64.rank) ∈ dot_S256x64_S64x10_S256x10_1_0_0_1_n_n.lhsBatch by decide), dif_pos (show (0 : Fin S256x64.rank) ∈ dot_S256x64_S64x10_S256x10_1_0_0_1_n_n.lhsNonContracting by decide)]
  rfl
/-- and has the contraction index as its column. -/
theorem lhsC_col (i : S256x10.Idx) (q : dot_S256x64_S64x10_S256x10_1_0_0_1_n_n.contr.Idx) :
    (dot_S256x64_S64x10_S256x10_1_0_0_1_n_n.lhsIdx i q 1).val = (q ⟨0, by decide⟩).val :=
  dot_S256x64_S64x10_S256x10_1_0_0_1_n_n.lhsIdx_val_of_single rfl i q
/-- The right operand's index has the contraction index as its row, -/
theorem rhsC_row (i : S256x10.Idx) (q : dot_S256x64_S64x10_S256x10_1_0_0_1_n_n.contr.Idx) :
    (dot_S256x64_S64x10_S256x10_1_0_0_1_n_n.rhsIdx i q 0).val = (q ⟨0, by decide⟩).val :=
  dot_S256x64_S64x10_S256x10_1_0_0_1_n_n.rhsIdx_val_of_single rfl i q
/-- and keeps the output's column. -/
theorem rhsC_col (i : S256x10.Idx) (q : dot_S256x64_S64x10_S256x10_1_0_0_1_n_n.contr.Idx) :
    (dot_S256x64_S64x10_S256x10_1_0_0_1_n_n.rhsIdx i q 1).val = (i 1).val := by
  unfold DotDims.rhsIdx
  rw [dif_neg (show ¬(1 : Fin S64x10.rank) ∈ dot_S256x64_S64x10_S256x10_1_0_0_1_n_n.rhsBatch by decide), dif_pos (show (1 : Fin S64x10.rank) ∈ dot_S256x64_S64x10_S256x10_1_0_0_1_n_n.rhsNonContracting by decide)]
  rfl

/-- The matrix product into a zero accumulator, read at row `r` and column `q`: the sum over the contracted axis. -/
theorem mmC_apply (x : FVec Ideal S256x64 .bf16) (w : FVec Ideal S64x10 .bf16) (r : Fin 256) (q : Fin 10) :
    FloatOps.matmul dot_S256x64_S64x10_S256x10_1_0_0_1_n_n none x w (constant (F := Ideal) S256x10 .f32 0x00000000#32) (ix2 r q)
      = ∑ k : Fin 64, x (ix2 r k) * w (ix2 k q) := by
  rw [Ideal.matmul_constant_zero_apply, ← Equiv.sum_comp (ValueIdx.contrEquiv1 dot_S256x64_S64x10_S256x10_1_0_0_1_n_n 64 rfl rfl).symm]
  refine Finset.sum_congr rfl fun k _ => ?_
  have hk := ValueIdx.contrEquiv1_symm_val dot_S256x64_S64x10_S256x10_1_0_0_1_n_n 64 rfl rfl k
  have el : dot_S256x64_S64x10_S256x10_1_0_0_1_n_n.lhsIdx (ix2 r q) ((ValueIdx.contrEquiv1 dot_S256x64_S64x10_S256x10_1_0_0_1_n_n 64 rfl rfl).symm k) = ix2 r k := funext fun a => Fin.ext (by
    match a with
    | ⟨0, _⟩ => exact lhsC_row _ _
    | ⟨1, _⟩ => exact (lhsC_col _ _).trans hk)
  have er : dot_S256x64_S64x10_S256x10_1_0_0_1_n_n.rhsIdx (ix2 r q) ((ValueIdx.contrEquiv1 dot_S256x64_S64x10_S256x10_1_0_0_1_n_n 64 rfl rfl).symm k) = ix2 k q := funext fun a => Fin.ext (by
    match a with
    | ⟨0, _⟩ => exact (rhsC_row _ _).trans hk
    | ⟨1, _⟩ => exact rhsC_col _ _)
  rw [el, er]

/-- Layer 5's payload at row `r`, column `q`: rounding the operands to bf16 is the identity on the extended reals, and so is a cast to the same shape. -/
theorem pay5_apply (x : Vec Ideal S256x64 .f32) (w : Vec Ideal S64x10 .f32) (r : Fin 256) (q : Fin 10) :
    k5_pay1 (F := Ideal) x w (ix2 r q) = ∑ k : Fin 64, x (ix2 r k) * w (ix2 k q) := by
  unfold k5_pay1
  simp only [shapeCast_self]
  exact mmC_apply _ _ r q

/-- The offsets of a whole-buffer load or store, however the two zeros are spelt. -/
theorem zero_offsets : (![0, 0] : Fin 2 → Nat) = fun _ => 0 := funext fun a => by fin_cases a <;> rfl

end Cert.KernelIdeal.RegionVal

end
-- ==== Proof.RegionVal0.lean ====
/-
  Dense layer 0: after the layer its output array holds the product of the two arrays it reads, whatever the buffers
  held when the layer was entered. The grid has 20 points; point `t` reads rows `5000·t … 5000·t + 4999` of the left array and all of
  the right array, and writes rows `5000·t … 5000·t + 4999` of the output. So what point `t` writes back is block `t` of the product
  (`flushed_eq0`), every row of the output lies in the block of point `row / 5000` (`cover0`), and the array ends at the
  product (`final0`).
-/
import proofs.«116388_j87196426044065_1_alg».proof.Proof.Gen.KernelIdeal.Frame
import proofs.«116388_j87196426044065_1_alg».proof.Proof.Spec
import proofs.«116388_j87196426044065_1_alg».proof.Proof.RegionValPay
import Idealize.ShloMosaic.Lib.Pipeline.Value
import Idealize.ShloMosaic.Lib.ValueIdx
import Idealize.ShloMosaic.PureOps.Ideal.Laws

noncomputable section

namespace Cert.KernelIdeal.RegionVal

open Idealize.ShloMosaic Idealize.ShloMosaic.TcCoe Idealize.SL.Sem Cert.KernelIdeal Cert.KernelIdeal.Gen
open Idealize.ShloMosaic.ValueIdx (ix2 eq_ix2)

variable (V : (c : Dev nD) → (b : Ref sig .tc) → Buf (Elt Ideal) ((c : Thread nD τ).loc b)) (c : Dev nD)

/-- One entry of a block's payload is the product's entry, when the block's row `r'` is the left array's row `r` and the
    weight block is the weight array. -/
theorem entry0 (X : S100000x128.Idx → EReal) (W : S128x64.Idx → EReal) (xb : Vec Ideal S5000x128 .f32) (wb : Vec Ideal S128x64 .f32)
    (r' : Fin 5000) (q : Fin 64) (r : Fin 100000)
    (hx : ∀ k : Fin 128, xb (ix2 r' k) = X (ix2 r k)) (hw : ∀ k : Fin 128, wb (ix2 k q) = W (ix2 k q)) :
    k0_pay1 (F := Ideal) xb wb (ix2 r' q) = Cert.Spec.mm X W (ix2 r q) := by
  rw [pay0_apply, Cert.Spec.mm_apply]
  exact Finset.sum_congr rfl fun k _ => by rw [hx k, hw k]

/-- The index maps, decided over the grid: the left array's and the output's block move down the rows with the point, the
    weight's block is always the first. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left array's block at point `t`, read at row `r'`: the array's row `5000·t + r'`. -/
theorem lblk0_apply (t : Fin cfg0.N) (x : S5000x128.Idx) (i : S100000x128.Idx)
    (h0 : (i 0).val = t.val * 5000 + (x 0).val) (h1 : (i 1).val = (x 1).val) :
    (iblk0 V c 0 t : Vec Ideal S5000x128 .f32) x = (V c main_arg0 : S100000x128.Idx → EReal) i := by
  obtain ⟨e0, e1, -, -, -, -⟩ := idx_facts0 t
  unfold iblk0
  rw [View.read_apply, cast_eq]
  show V c main_arg0 _ = V c main_arg0 _
  congr 1
  funext a
  apply Fin.ext
  match a with
  | ⟨0, _⟩ => show win0_0.index t (0 : Fin 2) * 5000 + 1 * (x 0).val = (i 0).val; rw [e0, h0]; omega
  | ⟨1, _⟩ => show win0_0.index t (1 : Fin 2) * 128 + 1 * (x 1).val = (i 1).val; rw [e1, h1]; omega

/-- The weight's block at any point is the weight array. -/
theorem wblk0_apply (t : Fin cfg0.N) (x : S128x64.Idx) :
    (iblk0 V c 1 t : Vec Ideal S128x64 .f32) x = (V c main_arg4 : S128x64.Idx → EReal) x := by
  obtain ⟨-, -, e2, e3, -, -⟩ := idx_facts0 t
  unfold iblk0
  rw [View.read_apply, cast_eq]
  show V c main_arg4 _ = V c main_arg4 _
  congr 1
  funext a
  apply Fin.ext
  match a with
  | ⟨0, _⟩ => show win0_1.index t (0 : Fin 2) * 128 + 1 * (x 0).val = (x 0).val; rw [e2]; omega
  | ⟨1, _⟩ => show win0_1.index t (1 : Fin 2) * 64 + 1 * (x 1).val = (x 1).val; rw [e3]; omega

/-- WHAT POINT `t` WRITES BACK is block `t` of the product of the two arrays as the layer finds them. -/
theorem flushed_eq0 (t : Fin cfg0.N) :
    (dat0 V c).flushed 2 t = ((cfg0.win 2).blk t).view.read (Elt Ideal) (Cert.Spec.mm (V c main_arg0) (V c main_arg4)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x64) zero_offsets]
  obtain ⟨-, -, -, -, e4, e5⟩ := idx_facts0 t
  have hN : t.val < 20 := lt_of_lt_of_eq t.isLt N_0
  funext j
  rw [View.read_apply, cast_eq]
  have h0 : (j 0).val < 5000 := (j 0).isLt
  have h1 : (j 1).val < 64 := (j 1).isLt
  have hj : (cfg0.win 2).xinj (grid0.coords t) j = ix2 (⟨(j 0).val, h0⟩ : Fin 5000) (⟨(j 1).val, h1⟩ : Fin 64) :=
    funext (Fin.forall_fin_two.mpr ⟨rfl, rfl⟩)
  have he : ((cfg0.win 2).blk t).view.emb j = ix2 (⟨t.val * 5000 + (j 0).val, by omega⟩ : Fin 100000) (⟨(j 1).val, h1⟩ : Fin 64) := by
    funext a
    apply Fin.ext
    match a with
    | ⟨0, _⟩ => show win0_2.index t (0 : Fin 2) * 5000 + 1 * (j 0).val = t.val * 5000 + (j 0).val; rw [e4]; omega
    | ⟨1, _⟩ => show win0_2.index t (1 : Fin 2) * 64 + 1 * (j 1).val = (j 1).val; rw [e5]; omega
  refine (congrArg (k0_pay1 (F := Ideal) (iblk0 V c 0 t) (iblk0 V c 1 t)) hj).trans ?_
  refine Eq.trans ?_ (congrArg (Cert.Spec.mm (V c main_arg0) (V c main_arg4)) he).symm
  exact entry0 (V c main_arg0) (V c main_arg4) (iblk0 V c 0 t) (iblk0 V c 1 t) _ _ _
    (fun k => lblk0_apply V c t _ _ rfl rfl) (fun k => wblk0_apply V c t _)

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v35).slice (win0_2.rect t)).set ↔ _
  rw [View.set_slice_whole, Rect.mem_set_unit]
  exact Iff.rfl

/-- Every index of the output array is in the block of the point its row falls to. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 64 ≤ (i 1).val ∧ (i 1).val < win0_2.index t (1 : Fin 2) * 64 + 64; rw [e5]; omega

/-- THE OUTPUT ARRAY after the layer: the product of the two arrays as the layer found them. -/
theorem final0 : (dat0 V c).arrAt 2 cfg0.N = Cert.Spec.mm (V c main_arg0) (V c main_arg4) :=
  (dat0 V c).arrAt_eq_of_cover 2 (Cert.Spec.mm (V c main_arg0) (V c main_arg4)) (fun t _ => flushed_eq0 V c t) (cover0)

end Cert.KernelIdeal.RegionVal

end
-- ==== Proof.RegionVal1.lean ====
/-
  Dense layer 1: after the layer its output array holds the product of the two arrays it reads, whatever the buffers
  held when the layer was entered. The grid has 20 points; point `t` reads rows `5000·t … 5000·t + 4999` of the left array and all of
  the right array, and writes rows `5000·t … 5000·t + 4999` of the output. So what point `t` writes back is block `t` of the product
  (`flushed_eq1`), every row of the output lies in the block of point `row / 5000` (`cover1`), and the array ends at the
  product (`final1`).
-/
import proofs.«116388_j87196426044065_1_alg».proof.Proof.Gen.KernelIdeal.Frame
import proofs.«116388_j87196426044065_1_alg».proof.Proof.Spec
import proofs.«116388_j87196426044065_1_alg».proof.Proof.RegionValPay
import Idealize.ShloMosaic.Lib.Pipeline.Value
import Idealize.ShloMosaic.Lib.ValueIdx
import Idealize.ShloMosaic.PureOps.Ideal.Laws

noncomputable section

namespace Cert.KernelIdeal.RegionVal

open Idealize.ShloMosaic Idealize.ShloMosaic.TcCoe Idealize.SL.Sem Cert.KernelIdeal Cert.KernelIdeal.Gen
open Idealize.ShloMosaic.ValueIdx (ix2 eq_ix2)

variable (V : (c : Dev nD) → (b : Ref sig .tc) → Buf (Elt Ideal) ((c : Thread nD τ).loc b)) (c : Dev nD)

/-- One entry of a block's payload is the product's entry, when the block's row `r'` is the left array's row `r` and the
    weight block is the weight array. -/
theorem entry1 (X : S100000x64.Idx → EReal) (W : S64x64.Idx → EReal) (xb : Vec Ideal S5000x64 .f32) (wb : Vec Ideal S64x64 .f32)
    (r' : Fin 5000) (q : Fin 64) (r : Fin 100000)
    (hx : ∀ k : Fin 64, xb (ix2 r' k) = X (ix2 r k)) (hw : ∀ k : Fin 64, wb (ix2 k q) = W (ix2 k q)) :
    k1_pay1 (F := Ideal) xb wb (ix2 r' q) = Cert.Spec.mm X W (ix2 r q) := by
  rw [pay1_apply, Cert.Spec.mm_apply]
  exact Finset.sum_congr rfl fun k _ => by rw [hx k, hw k]

/-- The index maps, decided over the grid: the left array's and the output's block move down the rows with the point, the
    weight's block is always the first. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left array's block at point `t`, read at row `r'`: the array's row `5000·t + r'`. -/
theorem lblk1_apply (t : Fin cfg1.N) (x : S5000x64.Idx) (i : S100000x64.Idx)
    (h0 : (i 0).val = t.val * 5000 + (x 0).val) (h1 : (i 1).val = (x 1).val) :
    (iblk1 V c 0 t : Vec Ideal S5000x64 .f32) x = (V c main_v51 : S100000x64.Idx → EReal) i := by
  obtain ⟨e0, e1, -, -, -, -⟩ := idx_facts1 t
  unfold iblk1
  rw [View.read_apply, cast_eq]
  show V c main_v51 _ = V c main_v51 _
  congr 1
  funext a
  apply Fin.ext
  match a with
  | ⟨0, _⟩ => show win1_0.index t (0 : Fin 2) * 5000 + 1 * (x 0).val = (i 0).val; rw [e0, h0]; omega
  | ⟨1, _⟩ => show win1_0.index t (1 : Fin 2) * 64 + 1 * (x 1).val = (i 1).val; rw [e1, h1]; omega

/-- The weight's block at any point is the weight array. -/
theorem wblk1_apply (t : Fin cfg1.N) (x : S64x64.Idx) :
    (iblk1 V c 1 t : Vec Ideal S64x64 .f32) x = (V c main_v53 : S64x64.Idx → EReal) x := by
  obtain ⟨-, -, e2, e3, -, -⟩ := idx_facts1 t
  unfold iblk1
  rw [View.read_apply, cast_eq]
  show V c main_v53 _ = V c main_v53 _
  congr 1
  funext a
  apply Fin.ext
  match a with
  | ⟨0, _⟩ => show win1_1.index t (0 : Fin 2) * 64 + 1 * (x 0).val = (x 0).val; rw [e2]; omega
  | ⟨1, _⟩ => show win1_1.index t (1 : Fin 2) * 64 + 1 * (x 1).val = (x 1).val; rw [e3]; omega

/-- WHAT POINT `t` WRITES BACK is block `t` of the product of the two arrays as the layer finds them. -/
theorem flushed_eq1 (t : Fin cfg1.N) :
    (dat1 V c).flushed 2 t = ((cfg1.win 2).blk t).view.read (Elt Ideal) (Cert.Spec.mm (V c main_v51) (V c main_v53)) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S64x64) zero_offsets]
  obtain ⟨-, -, -, -, e4, e5⟩ := idx_facts1 t
  have hN : t.val < 20 := lt_of_lt_of_eq t.isLt N_1
  funext j
  rw [View.read_apply, cast_eq]
  have h0 : (j 0).val < 5000 := (j 0).isLt
  have h1 : (j 1).val < 64 := (j 1).isLt
  have hj : (cfg1.win 2).xinj (grid1.coords t) j = ix2 (⟨(j 0).val, h0⟩ : Fin 5000) (⟨(j 1).val, h1⟩ : Fin 64) :=
    funext (Fin.forall_fin_two.mpr ⟨rfl, rfl⟩)
  have he : ((cfg1.win 2).blk t).view.emb j = ix2 (⟨t.val * 5000 + (j 0).val, by omega⟩ : Fin 100000) (⟨(j 1).val, h1⟩ : Fin 64) := by
    funext a
    apply Fin.ext
    match a with
    | ⟨0, _⟩ => show win1_2.index t (0 : Fin 2) * 5000 + 1 * (j 0).val = t.val * 5000 + (j 0).val; rw [e4]; omega
    | ⟨1, _⟩ => show win1_2.index t (1 : Fin 2) * 64 + 1 * (j 1).val = (j 1).val; rw [e5]; omega
  refine (congrArg (k1_pay1 (F := Ideal) (iblk1 V c 0 t) (iblk1 V c 1 t)) hj).trans ?_
  refine Eq.trans ?_ (congrArg (Cert.Spec.mm (V c main_v51) (V c main_v53)) he).symm
  exact entry1 (V c main_v51) (V c main_v53) (iblk1 V c 0 t) (iblk1 V c 1 t) _ _ _
    (fun k => lblk1_apply V c t _ _ rfl rfl) (fun k => wblk1_apply V c t _)

/-- An index of the output array is in point `t`'s block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v56).slice (win1_2.rect t)).set ↔ _
  rw [View.set_slice_whole, Rect.mem_set_unit]
  exact Iff.rfl

/-- Every index of the output array is in the block of the point its row falls to. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, e4, e5⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 64 ≤ (i 1).val ∧ (i 1).val < win1_2.index t (1 : Fin 2) * 64 + 64; rw [e5]; omega

/-- THE OUTPUT ARRAY after the layer: the product of the two arrays as the layer found them. -/
theorem final1 : (dat1 V c).arrAt 2 cfg1.N = Cert.Spec.mm (V c main_v51) (V c main_v53) :=
  (dat1 V c).arrAt_eq_of_cover 2 (Cert.Spec.mm (V c main_v51) (V c main_v53)) (fun t _ => flushed_eq1 V c t) (cover1)

end Cert.KernelIdeal.RegionVal

end
-- ==== Proof.RegionVal2.lean ====
/-
  Dense layer 2: after the layer its output array holds the product of the two arrays it reads, whatever the buffers
  held when the layer was entered. The grid has 20 points; point `t` reads rows `5000·t … 5000·t + 4999` of the left array and all of
  the right array, and writes rows `5000·t … 5000·t + 4999` of the output. So what point `t` writes back is block `t` of the product
  (`flushed_eq2`), every row of the output lies in the block of point `row / 5000` (`cover2`), and the array ends at the
  product (`final2`).
-/
import proofs.«116388_j87196426044065_1_alg».proof.Proof.Gen.KernelIdeal.Frame
import proofs.«116388_j87196426044065_1_alg».proof.Proof.Spec
import proofs.«116388_j87196426044065_1_alg».proof.Proof.RegionValPay
import Idealize.ShloMosaic.Lib.Pipeline.Value
import Idealize.ShloMosaic.Lib.ValueIdx
import Idealize.ShloMosaic.PureOps.Ideal.Laws

noncomputable section

namespace Cert.KernelIdeal.RegionVal

open Idealize.ShloMosaic Idealize.ShloMosaic.TcCoe Idealize.SL.Sem Cert.KernelIdeal Cert.KernelIdeal.Gen
open Idealize.ShloMosaic.ValueIdx (ix2 eq_ix2)

variable (V : (c : Dev nD) → (b : Ref sig .tc) → Buf (Elt Ideal) ((c : Thread nD τ).loc b)) (c : Dev nD)

/-- One entry of a block's payload is the product's entry, when the block's row `r'` is the left array's row `r` and the
    weight block is the weight array. -/
theorem entry2 (X : S100000x64.Idx → EReal) (W : S64x64.Idx → EReal) (xb : Vec Ideal S5000x64 .f32) (wb : Vec Ideal S64x64 .f32)
    (r' : Fin 5000) (q : Fin 64) (r : Fin 100000)
    (hx : ∀ k : Fin 64, xb (ix2 r' k) = X (ix2 r k)) (hw : ∀ k : Fin 64, wb (ix2 k q) = W (ix2 k q)) :
    k2_pay1 (F := Ideal) xb wb (ix2 r' q) = Cert.Spec.mm X W (ix2 r q) := by
  rw [pay2_apply, Cert.Spec.mm_apply]
  exact Finset.sum_congr rfl fun k _ => by rw [hx k, hw k]

/-- The index maps, decided over the grid: the left array's and the output's block move down the rows with the point, the
    weight's block is always the first. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left array's block at point `t`, read at row `r'`: the array's row `5000·t + r'`. -/
theorem lblk2_apply (t : Fin cfg2.N) (x : S5000x64.Idx) (i : S100000x64.Idx)
    (h0 : (i 0).val = t.val * 5000 + (x 0).val) (h1 : (i 1).val = (x 1).val) :
    (iblk2 V c 0 t : Vec Ideal S5000x64 .f32) x = (V c main_v72 : S100000x64.Idx → EReal) i := by
  obtain ⟨e0, e1, -, -, -, -⟩ := idx_facts2 t
  unfold iblk2
  rw [View.read_apply, cast_eq]
  show V c main_v72 _ = V c main_v72 _
  congr 1
  funext a
  apply Fin.ext
  match a with
  | ⟨0, _⟩ => show win2_0.index t (0 : Fin 2) * 5000 + 1 * (x 0).val = (i 0).val; rw [e0, h0]; omega
  | ⟨1, _⟩ => show win2_0.index t (1 : Fin 2) * 64 + 1 * (x 1).val = (i 1).val; rw [e1, h1]; omega

/-- The weight's block at any point is the weight array. -/
theorem wblk2_apply (t : Fin cfg2.N) (x : S64x64.Idx) :
    (iblk2 V c 1 t : Vec Ideal S64x64 .f32) x = (V c main_v74 : S64x64.Idx → EReal) x := by
  obtain ⟨-, -, e2, e3, -, -⟩ := idx_facts2 t
  unfold iblk2
  rw [View.read_apply, cast_eq]
  show V c main_v74 _ = V c main_v74 _
  congr 1
  funext a
  apply Fin.ext
  match a with
  | ⟨0, _⟩ => show win2_1.index t (0 : Fin 2) * 64 + 1 * (x 0).val = (x 0).val; rw [e2]; omega
  | ⟨1, _⟩ => show win2_1.index t (1 : Fin 2) * 64 + 1 * (x 1).val = (x 1).val; rw [e3]; omega

/-- WHAT POINT `t` WRITES BACK is block `t` of the product of the two arrays as the layer finds them. -/
theorem flushed_eq2 (t : Fin cfg2.N) :
    (dat2 V c).flushed 2 t = ((cfg2.win 2).blk t).view.read (Elt Ideal) (Cert.Spec.mm (V c main_v72) (V c main_v74)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x64) zero_offsets]
  obtain ⟨-, -, -, -, e4, e5⟩ := idx_facts2 t
  have hN : t.val < 20 := lt_of_lt_of_eq t.isLt N_2
  funext j
  rw [View.read_apply, cast_eq]
  have h0 : (j 0).val < 5000 := (j 0).isLt
  have h1 : (j 1).val < 64 := (j 1).isLt
  have hj : (cfg2.win 2).xinj (grid2.coords t) j = ix2 (⟨(j 0).val, h0⟩ : Fin 5000) (⟨(j 1).val, h1⟩ : Fin 64) :=
    funext (Fin.forall_fin_two.mpr ⟨rfl, rfl⟩)
  have he : ((cfg2.win 2).blk t).view.emb j = ix2 (⟨t.val * 5000 + (j 0).val, by omega⟩ : Fin 100000) (⟨(j 1).val, h1⟩ : Fin 64) := by
    funext a
    apply Fin.ext
    match a with
    | ⟨0, _⟩ => show win2_2.index t (0 : Fin 2) * 5000 + 1 * (j 0).val = t.val * 5000 + (j 0).val; rw [e4]; omega
    | ⟨1, _⟩ => show win2_2.index t (1 : Fin 2) * 64 + 1 * (j 1).val = (j 1).val; rw [e5]; omega
  refine (congrArg (k2_pay1 (F := Ideal) (iblk2 V c 0 t) (iblk2 V c 1 t)) hj).trans ?_
  refine Eq.trans ?_ (congrArg (Cert.Spec.mm (V c main_v72) (V c main_v74)) he).symm
  exact entry2 (V c main_v72) (V c main_v74) (iblk2 V c 0 t) (iblk2 V c 1 t) _ _ _
    (fun k => lblk2_apply V c t _ _ rfl rfl) (fun k => wblk2_apply V c t _)

/-- An index of the output array is in point `t`'s block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v77).slice (win2_2.rect t)).set ↔ _
  rw [View.set_slice_whole, Rect.mem_set_unit]
  exact Iff.rfl

/-- Every index of the output array is in the block of the point its row falls to. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 64 ≤ (i 1).val ∧ (i 1).val < win2_2.index t (1 : Fin 2) * 64 + 64; rw [e5]; omega

/-- THE OUTPUT ARRAY after the layer: the product of the two arrays as the layer found them. -/
theorem final2 : (dat2 V c).arrAt 2 cfg2.N = Cert.Spec.mm (V c main_v72) (V c main_v74) :=
  (dat2 V c).arrAt_eq_of_cover 2 (Cert.Spec.mm (V c main_v72) (V c main_v74)) (fun t _ => flushed_eq2 V c t) (cover2)

end Cert.KernelIdeal.RegionVal

end
-- ==== Proof.RegionVal3.lean ====
/-
  Dense layer 3: after the layer its output array holds the product of the two arrays it reads, whatever the buffers
  held when the layer was entered. The grid has 20 points; point `t` reads rows `5000·t … 5000·t + 4999` of the left array and all of
  the right array, and writes rows `5000·t … 5000·t + 4999` of the output. So what point `t` writes back is block `t` of the product
  (`flushed_eq3`), every row of the output lies in the block of point `row / 5000` (`cover3`), and the array ends at the
  product (`final3`).
-/
import proofs.«116388_j87196426044065_1_alg».proof.Proof.Gen.KernelIdeal.Frame
import proofs.«116388_j87196426044065_1_alg».proof.Proof.Spec
import proofs.«116388_j87196426044065_1_alg».proof.Proof.RegionValPay
import Idealize.ShloMosaic.Lib.Pipeline.Value
import Idealize.ShloMosaic.Lib.ValueIdx
import Idealize.ShloMosaic.PureOps.Ideal.Laws

noncomputable section

namespace Cert.KernelIdeal.RegionVal

open Idealize.ShloMosaic Idealize.ShloMosaic.TcCoe Idealize.SL.Sem Cert.KernelIdeal Cert.KernelIdeal.Gen
open Idealize.ShloMosaic.ValueIdx (ix2 eq_ix2)

variable (V : (c : Dev nD) → (b : Ref sig .tc) → Buf (Elt Ideal) ((c : Thread nD τ).loc b)) (c : Dev nD)

/-- One entry of a block's payload is the product's entry, when the block's row `r'` is the left array's row `r` and the
    weight block is the weight array. -/
theorem entry3 (X : S100000x64.Idx → EReal) (W : S64x64.Idx → EReal) (xb : Vec Ideal S5000x64 .f32) (wb : Vec Ideal S64x64 .f32)
    (r' : Fin 5000) (q : Fin 64) (r : Fin 100000)
    (hx : ∀ k : Fin 64, xb (ix2 r' k) = X (ix2 r k)) (hw : ∀ k : Fin 64, wb (ix2 k q) = W (ix2 k q)) :
    k3_pay1 (F := Ideal) xb wb (ix2 r' q) = Cert.Spec.mm X W (ix2 r q) := by
  rw [pay3_apply, Cert.Spec.mm_apply]
  exact Finset.sum_congr rfl fun k _ => by rw [hx k, hw k]

/-- The index maps, decided over the grid: the left array's and the output's block move down the rows with the point, the
    weight's block is always the first. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left array's block at point `t`, read at row `r'`: the array's row `5000·t + r'`. -/
theorem lblk3_apply (t : Fin cfg3.N) (x : S5000x64.Idx) (i : S100000x64.Idx)
    (h0 : (i 0).val = t.val * 5000 + (x 0).val) (h1 : (i 1).val = (x 1).val) :
    (iblk3 V c 0 t : Vec Ideal S5000x64 .f32) x = (V c main_v93 : S100000x64.Idx → EReal) i := by
  obtain ⟨e0, e1, -, -, -, -⟩ := idx_facts3 t
  unfold iblk3
  rw [View.read_apply, cast_eq]
  show V c main_v93 _ = V c main_v93 _
  congr 1
  funext a
  apply Fin.ext
  match a with
  | ⟨0, _⟩ => show win3_0.index t (0 : Fin 2) * 5000 + 1 * (x 0).val = (i 0).val; rw [e0, h0]; omega
  | ⟨1, _⟩ => show win3_0.index t (1 : Fin 2) * 64 + 1 * (x 1).val = (i 1).val; rw [e1, h1]; omega

/-- The weight's block at any point is the weight array. -/
theorem wblk3_apply (t : Fin cfg3.N) (x : S64x64.Idx) :
    (iblk3 V c 1 t : Vec Ideal S64x64 .f32) x = (V c main_v95 : S64x64.Idx → EReal) x := by
  obtain ⟨-, -, e2, e3, -, -⟩ := idx_facts3 t
  unfold iblk3
  rw [View.read_apply, cast_eq]
  show V c main_v95 _ = V c main_v95 _
  congr 1
  funext a
  apply Fin.ext
  match a with
  | ⟨0, _⟩ => show win3_1.index t (0 : Fin 2) * 64 + 1 * (x 0).val = (x 0).val; rw [e2]; omega
  | ⟨1, _⟩ => show win3_1.index t (1 : Fin 2) * 64 + 1 * (x 1).val = (x 1).val; rw [e3]; omega

/-- WHAT POINT `t` WRITES BACK is block `t` of the product of the two arrays as the layer finds them. -/
theorem flushed_eq3 (t : Fin cfg3.N) :
    (dat3 V c).flushed 2 t = ((cfg3.win 2).blk t).view.read (Elt Ideal) (Cert.Spec.mm (V c main_v93) (V c main_v95)) := by
  show (cfg3.win 2).cut (grid3.coords t) ((dat3 V c).after 2 t) = _
  rw [after3_2]
  unfold out3_2
  rw [View.canon_unit_zero zero_offsets]
  simp only [View.ld_unit_zero (S := S5000x64) zero_offsets, View.ld_unit_zero (S := S64x64) zero_offsets]
  obtain ⟨-, -, -, -, e4, e5⟩ := idx_facts3 t
  have hN : t.val < 20 := lt_of_lt_of_eq t.isLt N_3
  funext j
  rw [View.read_apply, cast_eq]
  have h0 : (j 0).val < 5000 := (j 0).isLt
  have h1 : (j 1).val < 64 := (j 1).isLt
  have hj : (cfg3.win 2).xinj (grid3.coords t) j = ix2 (⟨(j 0).val, h0⟩ : Fin 5000) (⟨(j 1).val, h1⟩ : Fin 64) :=
    funext (Fin.forall_fin_two.mpr ⟨rfl, rfl⟩)
  have he : ((cfg3.win 2).blk t).view.emb j = ix2 (⟨t.val * 5000 + (j 0).val, by omega⟩ : Fin 100000) (⟨(j 1).val, h1⟩ : Fin 64) := by
    funext a
    apply Fin.ext
    match a with
    | ⟨0, _⟩ => show win3_2.index t (0 : Fin 2) * 5000 + 1 * (j 0).val = t.val * 5000 + (j 0).val; rw [e4]; omega
    | ⟨1, _⟩ => show win3_2.index t (1 : Fin 2) * 64 + 1 * (j 1).val = (j 1).val; rw [e5]; omega
  refine (congrArg (k3_pay1 (F := Ideal) (iblk3 V c 0 t) (iblk3 V c 1 t)) hj).trans ?_
  refine Eq.trans ?_ (congrArg (Cert.Spec.mm (V c main_v93) (V c main_v95)) he).symm
  exact entry3 (V c main_v93) (V c main_v95) (iblk3 V c 0 t) (iblk3 V c 1 t) _ _ _
    (fun k => lblk3_apply V c t _ _ rfl rfl) (fun k => wblk3_apply V c t _)

/-- An index of the output array is in point `t`'s block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v98).slice (win3_2.rect t)).set ↔ _
  rw [View.set_slice_whole, Rect.mem_set_unit]
  exact Iff.rfl

/-- Every index of the output array is in the block of the point its row falls to. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, lt_of_lt_of_eq (by omega : (i 0).val / 5000 < 20) N_3.symm⟩, rfl⟩
  obtain ⟨-, -, -, -, e4, e5⟩ := idx_facts3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 64 ≤ (i 1).val ∧ (i 1).val < win3_2.index t (1 : Fin 2) * 64 + 64; rw [e5]; omega

/-- THE OUTPUT ARRAY after the layer: the product of the two arrays as the layer found them. -/
theorem final3 : (dat3 V c).arrAt 2 cfg3.N = Cert.Spec.mm (V c main_v93) (V c main_v95) :=
  (dat3 V c).arrAt_eq_of_cover 2 (Cert.Spec.mm (V c main_v93) (V c main_v95)) (fun t _ => flushed_eq3 V c t) (cover3)

end Cert.KernelIdeal.RegionVal

end
-- ==== Proof.RegionVal4.lean ====
/-
  Dense layer 4: after the layer its output array holds the product of the two arrays it reads, whatever the buffers
  held when the layer was entered. The grid has 20 points; point `t` reads rows `5000·t … 5000·t + 4999` of the left array and all of
  the right array, and writes rows `5000·t … 5000·t + 4999` of the output. So what point `t` writes back is block `t` of the product
  (`flushed_eq4`), every row of the output lies in the block of point `row / 5000` (`cover4`), and the array ends at the
  product (`final4`).
-/
import proofs.«116388_j87196426044065_1_alg».proof.Proof.Gen.KernelIdeal.Frame
import proofs.«116388_j87196426044065_1_alg».proof.Proof.Spec
import proofs.«116388_j87196426044065_1_alg».proof.Proof.RegionValPay
import Idealize.ShloMosaic.Lib.Pipeline.Value
import Idealize.ShloMosaic.Lib.ValueIdx
import Idealize.ShloMosaic.PureOps.Ideal.Laws

noncomputable section

namespace Cert.KernelIdeal.RegionVal

open Idealize.ShloMosaic Idealize.ShloMosaic.TcCoe Idealize.SL.Sem Cert.KernelIdeal Cert.KernelIdeal.Gen
open Idealize.ShloMosaic.ValueIdx (ix2 eq_ix2)

variable (V : (c : Dev nD) → (b : Ref sig .tc) → Buf (Elt Ideal) ((c : Thread nD τ).loc b)) (c : Dev nD)

/-- One entry of a block's payload is the product's entry, when the block's row `r'` is the left array's row `r` and the
    weight block is the weight array. -/
theorem entry4 (X : S100000x64.Idx → EReal) (W : S64x64.Idx → EReal) (xb : Vec Ideal S5000x64 .f32) (wb : Vec Ideal S64x64 .f32)
    (r' : Fin 5000) (q : Fin 64) (r : Fin 100000)
    (hx : ∀ k : Fin 64, xb (ix2 r' k) = X (ix2 r k)) (hw : ∀ k : Fin 64, wb (ix2 k q) = W (ix2 k q)) :
    k4_pay1 (F := Ideal) xb wb (ix2 r' q) = Cert.Spec.mm X W (ix2 r q) := by
  rw [pay4_apply, Cert.Spec.mm_apply]
  exact Finset.sum_congr rfl fun k _ => by rw [hx k, hw k]

/-- The index maps, decided over the grid: the left array's and the output's block move down the rows with the point, the
    weight's block is always the first. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left array's block at point `t`, read at row `r'`: the array's row `5000·t + r'`. -/
theorem lblk4_apply (t : Fin cfg4.N) (x : S5000x64.Idx) (i : S100000x64.Idx)
    (h0 : (i 0).val = t.val * 5000 + (x 0).val) (h1 : (i 1).val = (x 1).val) :
    (iblk4 V c 0 t : Vec Ideal S5000x64 .f32) x = (V c main_v114 : S100000x64.Idx → EReal) i := by
  obtain ⟨e0, e1, -, -, -, -⟩ := idx_facts4 t
  unfold iblk4
  rw [View.read_apply, cast_eq]
  show V c main_v114 _ = V c main_v114 _
  congr 1
  funext a
  apply Fin.ext
  match a with
  | ⟨0, _⟩ => show win4_0.index t (0 : Fin 2) * 5000 + 1 * (x 0).val = (i 0).val; rw [e0, h0]; omega
  | ⟨1, _⟩ => show win4_0.index t (1 : Fin 2) * 64 + 1 * (x 1).val = (i 1).val; rw [e1, h1]; omega

/-- The weight's block at any point is the weight array. -/
theorem wblk4_apply (t : Fin cfg4.N) (x : S64x64.Idx) :
    (iblk4 V c 1 t : Vec Ideal S64x64 .f32) x = (V c main_v116 : S64x64.Idx → EReal) x := by
  obtain ⟨-, -, e2, e3, -, -⟩ := idx_facts4 t
  unfold iblk4
  rw [View.read_apply, cast_eq]
  show V c main_v116 _ = V c main_v116 _
  congr 1
  funext a
  apply Fin.ext
  match a with
  | ⟨0, _⟩ => show win4_1.index t (0 : Fin 2) * 64 + 1 * (x 0).val = (x 0).val; rw [e2]; omega
  | ⟨1, _⟩ => show win4_1.index t (1 : Fin 2) * 64 + 1 * (x 1).val = (x 1).val; rw [e3]; omega

/-- WHAT POINT `t` WRITES BACK is block `t` of the product of the two arrays as the layer finds them. -/
theorem flushed_eq4 (t : Fin cfg4.N) :
    (dat4 V c).flushed 2 t = ((cfg4.win 2).blk t).view.read (Elt Ideal) (Cert.Spec.mm (V c main_v114) (V c main_v116)) := by
  show (cfg4.win 2).cut (grid4.coords t) ((dat4 V c).after 2 t) = _
  rw [after4_2]
  unfold out4_2
  rw [View.canon_unit_zero zero_offsets]
  simp only [View.ld_unit_zero (S := S5000x64) zero_offsets, View.ld_unit_zero (S := S64x64) zero_offsets]
  obtain ⟨-, -, -, -, e4, e5⟩ := idx_facts4 t
  have hN : t.val < 20 := lt_of_lt_of_eq t.isLt N_4
  funext j
  rw [View.read_apply, cast_eq]
  have h0 : (j 0).val < 5000 := (j 0).isLt
  have h1 : (j 1).val < 64 := (j 1).isLt
  have hj : (cfg4.win 2).xinj (grid4.coords t) j = ix2 (⟨(j 0).val, h0⟩ : Fin 5000) (⟨(j 1).val, h1⟩ : Fin 64) :=
    funext (Fin.forall_fin_two.mpr ⟨rfl, rfl⟩)
  have he : ((cfg4.win 2).blk t).view.emb j = ix2 (⟨t.val * 5000 + (j 0).val, by omega⟩ : Fin 100000) (⟨(j 1).val, h1⟩ : Fin 64) := by
    funext a
    apply Fin.ext
    match a with
    | ⟨0, _⟩ => show win4_2.index t (0 : Fin 2) * 5000 + 1 * (j 0).val = t.val * 5000 + (j 0).val; rw [e4]; omega
    | ⟨1, _⟩ => show win4_2.index t (1 : Fin 2) * 64 + 1 * (j 1).val = (j 1).val; rw [e5]; omega
  refine (congrArg (k4_pay1 (F := Ideal) (iblk4 V c 0 t) (iblk4 V c 1 t)) hj).trans ?_
  refine Eq.trans ?_ (congrArg (Cert.Spec.mm (V c main_v114) (V c main_v116)) he).symm
  exact entry4 (V c main_v114) (V c main_v116) (iblk4 V c 0 t) (iblk4 V c 1 t) _ _ _
    (fun k => lblk4_apply V c t _ _ rfl rfl) (fun k => wblk4_apply V c t _)

/-- An index of the output array is in point `t`'s block iff each coordinate is in the block's range on its axis. -/
theorem mem_blk4 (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v119).slice (win4_2.rect t)).set ↔ _
  rw [View.set_slice_whole, Rect.mem_set_unit]
  exact Iff.rfl

/-- Every index of the output array is in the block of the point its row falls to. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ : ∃ t : Fin cfg4.N, t.val = (i 0).val / 5000 :=
    ⟨⟨(i 0).val / 5000, lt_of_lt_of_eq (by omega : (i 0).val / 5000 < 20) N_4.symm⟩, rfl⟩
  obtain ⟨-, -, -, -, e4, e5⟩ := idx_facts4 t
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; rw [e4, ht]; omega
  | ⟨1, _⟩ => show win4_2.index t (1 : Fin 2) * 64 ≤ (i 1).val ∧ (i 1).val < win4_2.index t (1 : Fin 2) * 64 + 64; rw [e5]; omega

/-- THE OUTPUT ARRAY after the layer: the product of the two arrays as the layer found them. -/
theorem final4 : (dat4 V c).arrAt 2 cfg4.N = Cert.Spec.mm (V c main_v114) (V c main_v116) :=
  (dat4 V c).arrAt_eq_of_cover 2 (Cert.Spec.mm (V c main_v114) (V c main_v116)) (fun t _ => flushed_eq4 V c t) (cover4)

end Cert.KernelIdeal.RegionVal

end
-- ==== Proof.RegionVal5.lean ====
/-
  Dense layer 5: after the layer its output array holds the product of the two arrays it reads, whatever the buffers
  held when the layer was entered. The grid has 1 point; point `t` reads rows `256·t … 256·t + 255` of the left array and all of
  the right array, and writes rows `256·t … 256·t + 255` of the output. So what point `t` writes back is block `t` of the product
  (`flushed_eq5`), every row of the output lies in the block of point `row / 256` (`cover5`), and the array ends at the
  product (`final5`).
-/
import proofs.«116388_j87196426044065_1_alg».proof.Proof.Gen.KernelIdeal.Frame
import proofs.«116388_j87196426044065_1_alg».proof.Proof.Spec
import proofs.«116388_j87196426044065_1_alg».proof.Proof.RegionValPay
import Idealize.ShloMosaic.Lib.Pipeline.Value
import Idealize.ShloMosaic.Lib.ValueIdx
import Idealize.ShloMosaic.PureOps.Ideal.Laws

noncomputable section

namespace Cert.KernelIdeal.RegionVal

open Idealize.ShloMosaic Idealize.ShloMosaic.TcCoe Idealize.SL.Sem Cert.KernelIdeal Cert.KernelIdeal.Gen
open Idealize.ShloMosaic.ValueIdx (ix2 eq_ix2)

variable (V : (c : Dev nD) → (b : Ref sig .tc) → Buf (Elt Ideal) ((c : Thread nD τ).loc b)) (c : Dev nD)

/-- One entry of a block's payload is the product's entry, when the block's row `r'` is the left array's row `r` and the
    weight block is the weight array. -/
theorem entry5 (X : S256x64.Idx → EReal) (W : S64x10.Idx → EReal) (xb : Vec Ideal S256x64 .f32) (wb : Vec Ideal S64x10 .f32)
    (r' : Fin 256) (q : Fin 10) (r : Fin 256)
    (hx : ∀ k : Fin 64, xb (ix2 r' k) = X (ix2 r k)) (hw : ∀ k : Fin 64, wb (ix2 k q) = W (ix2 k q)) :
    k5_pay1 (F := Ideal) xb wb (ix2 r' q) = Cert.Spec.mm X W (ix2 r q) := by
  rw [pay5_apply, Cert.Spec.mm_apply]
  exact Finset.sum_congr rfl fun k _ => by rw [hx k, hw k]

/-- The index maps, decided over the grid: the left array's and the output's block move down the rows with the point, the
    weight's block is always the first. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The left array's block at point `t`, read at row `r'`: the array's row `256·t + r'`. -/
theorem lblk5_apply (t : Fin cfg5.N) (x : S256x64.Idx) (i : S256x64.Idx)
    (h0 : (i 0).val = t.val * 256 + (x 0).val) (h1 : (i 1).val = (x 1).val) :
    (iblk5 V c 0 t : Vec Ideal S256x64 .f32) x = (V c main_v147 : S256x64.Idx → EReal) i := by
  obtain ⟨e0, e1, -, -, -, -⟩ := idx_facts5 t
  unfold iblk5
  rw [View.read_apply, cast_eq]
  show V c main_v147 _ = V c main_v147 _
  congr 1
  funext a
  apply Fin.ext
  match a with
  | ⟨0, _⟩ => show win5_0.index t (0 : Fin 2) * 256 + 1 * (x 0).val = (i 0).val; rw [e0, h0]; omega
  | ⟨1, _⟩ => show win5_0.index t (1 : Fin 2) * 64 + 1 * (x 1).val = (i 1).val; rw [e1, h1]; omega

/-- The weight's block at any point is the weight array. -/
theorem wblk5_apply (t : Fin cfg5.N) (x : S64x10.Idx) :
    (iblk5 V c 1 t : Vec Ideal S64x10 .f32) x = (V c main_arg8 : S64x10.Idx → EReal) x := by
  obtain ⟨-, -, e2, e3, -, -⟩ := idx_facts5 t
  unfold iblk5
  rw [View.read_apply, cast_eq]
  show V c main_arg8 _ = V c main_arg8 _
  congr 1
  funext a
  apply Fin.ext
  match a with
  | ⟨0, _⟩ => show win5_1.index t (0 : Fin 2) * 64 + 1 * (x 0).val = (x 0).val; rw [e2]; omega
  | ⟨1, _⟩ => show win5_1.index t (1 : Fin 2) * 10 + 1 * (x 1).val = (x 1).val; rw [e3]; omega

/-- WHAT POINT `t` WRITES BACK is block `t` of the product of the two arrays as the layer finds them. -/
theorem flushed_eq5 (t : Fin cfg5.N) :
    (dat5 V c).flushed 2 t = ((cfg5.win 2).blk t).view.read (Elt Ideal) (Cert.Spec.mm (V c main_v147) (V c main_arg8)) := by
  show (cfg5.win 2).cut (grid5.coords t) ((dat5 V c).after 2 t) = _
  rw [after5_2]
  unfold out5_2
  rw [View.canon_unit_zero zero_offsets]
  simp only [View.ld_unit_zero (S := S256x64) zero_offsets, View.ld_unit_zero (S := S64x10) zero_offsets]
  obtain ⟨-, -, -, -, e4, e5⟩ := idx_facts5 t
  have hN : t.val < 1 := lt_of_lt_of_eq t.isLt N_5
  funext j
  rw [View.read_apply, cast_eq]
  have h0 : (j 0).val < 256 := (j 0).isLt
  have h1 : (j 1).val < 10 := (j 1).isLt
  have hj : (cfg5.win 2).xinj (grid5.coords t) j = ix2 (⟨(j 0).val, h0⟩ : Fin 256) (⟨(j 1).val, h1⟩ : Fin 10) :=
    funext (Fin.forall_fin_two.mpr ⟨rfl, rfl⟩)
  have he : ((cfg5.win 2).blk t).view.emb j = ix2 (⟨t.val * 256 + (j 0).val, by omega⟩ : Fin 256) (⟨(j 1).val, h1⟩ : Fin 10) := by
    funext a
    apply Fin.ext
    match a with
    | ⟨0, _⟩ => show win5_2.index t (0 : Fin 2) * 256 + 1 * (j 0).val = t.val * 256 + (j 0).val; rw [e4]; omega
    | ⟨1, _⟩ => show win5_2.index t (1 : Fin 2) * 10 + 1 * (j 1).val = (j 1).val; rw [e5]; omega
  refine (congrArg (k5_pay1 (F := Ideal) (iblk5 V c 0 t) (iblk5 V c 1 t)) hj).trans ?_
  refine Eq.trans ?_ (congrArg (Cert.Spec.mm (V c main_v147) (V c main_arg8)) he).symm
  exact entry5 (V c main_v147) (V c main_arg8) (iblk5 V c 0 t) (iblk5 V c 1 t) _ _ _
    (fun k => lblk5_apply V c t _ _ rfl rfl) (fun k => wblk5_apply V c t _)

/-- An index of the output array is in point `t`'s block iff each coordinate is in the block's range on its axis. -/
theorem mem_blk5 (t : Fin cfg5.N) (i : S256x10.Idx) :
    i ∈ ((cfg5.win 2).blk t).view.set ↔ ∀ a : Fin 2, win5_2.index t a * S256x10.size a ≤ (i a).val ∧ (i a).val < win5_2.index t a * S256x10.size a + S256x10.size a := by
  show i ∈ ((View.whole main_v148).slice (win5_2.rect t)).set ↔ _
  rw [View.set_slice_whole, Rect.mem_set_unit]
  exact Iff.rfl

/-- Every index of the output array is in the block of the point its row falls to. -/
theorem cover5 (i : S256x10.Idx) : ∃ t : Fin cfg5.N, (cfg5.win 2).flush t = true ∧ i ∈ ((cfg5.win 2).blk t).view.set := by
  have hi0 : (i 0).val < 256 := (i 0).isLt
  have hi1 : (i 1).val < 10 := (i 1).isLt
  obtain ⟨t, ht⟩ : ∃ t : Fin cfg5.N, t.val = (i 0).val / 256 :=
    ⟨⟨(i 0).val / 256, lt_of_lt_of_eq (by omega : (i 0).val / 256 < 1) N_5.symm⟩, rfl⟩
  obtain ⟨-, -, -, -, e4, e5⟩ := idx_facts5 t
  refine ⟨t, flush5_2 t, ?_⟩
  rw [mem_blk5]
  intro a
  match a with
  | ⟨0, _⟩ => show win5_2.index t (0 : Fin 2) * 256 ≤ (i 0).val ∧ (i 0).val < win5_2.index t (0 : Fin 2) * 256 + 256; rw [e4, ht]; omega
  | ⟨1, _⟩ => show win5_2.index t (1 : Fin 2) * 10 ≤ (i 1).val ∧ (i 1).val < win5_2.index t (1 : Fin 2) * 10 + 10; rw [e5]; omega

/-- THE OUTPUT ARRAY after the layer: the product of the two arrays as the layer found them. -/
theorem final5 : (dat5 V c).arrAt 2 cfg5.N = Cert.Spec.mm (V c main_v147) (V c main_arg8) :=
  (dat5 V c).arrAt_eq_of_cover 2 (Cert.Spec.mm (V c main_v147) (V c main_arg8)) (fun t _ => flushed_eq5 V c t) (cover5)

end Cert.KernelIdeal.RegionVal

end
-- ==== Proof.RegionVal.lean ====
/-
  What each of the six dense layers leaves in its output array, at the extended reals: the rows-times-columns product
  of the two arrays it reads, whatever the buffers held when the layer was entered. One module per layer proves it
  (block by block, then the cover of the array by the blocks); here the six results stand together.
-/
import proofs.«116388_j87196426044065_1_alg».proof.Proof.RegionVal0
import proofs.«116388_j87196426044065_1_alg».proof.Proof.RegionVal1
import proofs.«116388_j87196426044065_1_alg».proof.Proof.RegionVal2
import proofs.«116388_j87196426044065_1_alg».proof.Proof.RegionVal3
import proofs.«116388_j87196426044065_1_alg».proof.Proof.RegionVal4
import proofs.«116388_j87196426044065_1_alg».proof.Proof.RegionVal5

noncomputable section

namespace Cert.KernelIdeal.RegionVal

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b)) (c : Dev nD)

theorem region0 : (dat0 V c).arrAt 2 cfg0.N = Cert.Spec.mm (V c main_arg0) (V c main_arg4) := final0 V c
theorem region1 : (dat1 V c).arrAt 2 cfg1.N = Cert.Spec.mm (V c main_v51) (V c main_v53) := final1 V c
theorem region2 : (dat2 V c).arrAt 2 cfg2.N = Cert.Spec.mm (V c main_v72) (V c main_v74) := final2 V c
theorem region3 : (dat3 V c).arrAt 2 cfg3.N = Cert.Spec.mm (V c main_v93) (V c main_v95) := final3 V c
theorem region4 : (dat4 V c).arrAt 2 cfg4.N = Cert.Spec.mm (V c main_v114) (V c main_v116) := final4 V c
theorem region5 : (dat5 V c).arrAt 2 cfg5.N = Cert.Spec.mm (V c main_v147) (V c main_arg8) := final5 V c

end Cert.KernelIdeal.RegionVal

end
-- ==== Proof.RefDots.lean ====
/-
  The reference's six `dot_general` stages, at the extended reals, are the rows-times-columns product of their two
  operand stages.
-/
import proofs.«116388_j87196426044065_1_alg».proof.Proof.Gen.ReferenceIdeal.Read
import proofs.«116388_j87196426044065_1_alg».proof.Proof.Spec

noncomputable section

namespace Cert.ReferenceIdeal.RefDots

open Cert.ReferenceIdeal Cert.ReferenceIdeal.Gen Cert.ReferenceIdeal.Read Idealize.ShloMosaic Idealize.ShloMosaic.TcCoe

/-- A sum over `k` of `h` at `(i 0, k)` times `w` at `(k, i 1)`, the two index families given up to equality, is the
    entry of the product at `i`. -/
theorem sum_eq_mm {M K N : Nat} (h : (⟨2, ![M, K]⟩ : Shape).Idx → EReal) (w : (⟨2, ![K, N]⟩ : Shape).Idx → EReal)
    (i : (⟨2, ![M, N]⟩ : Shape).Idx) (li : Fin K → (⟨2, ![M, K]⟩ : Shape).Idx) (ri : Fin K → (⟨2, ![K, N]⟩ : Shape).Idx)
    (hl : ∀ k, li k = ValueIdx.ix2 (⟨(i 0).val, (i 0).isLt⟩ : Fin M) k)
    (hr : ∀ k, ri k = ValueIdx.ix2 k (⟨(i 1).val, (i 1).isLt⟩ : Fin N)) :
    ∑ k : Fin K, h (li k) * w (ri k) = Cert.Spec.mm h w i :=
  Finset.sum_congr rfl fun k _ => by rw [hl k, hr k]

theorem v34_mm (x0 : (⟨S100000x128, .f32⟩ : BufTy).Contents (Elt Ideal)) (x4 : (⟨S128x64, .f32⟩ : BufTy).Contents (Elt Ideal)) :
    val_main_v34 (F := Ideal) x0 x4 = Cert.Spec.mm x0 x4 := by
  funext i
  rw [val_main_v34_apply]
  exact sum_eq_mm x0 x4 i (lidx_main_v34 i) (ridx_main_v34 i) (fun k => funext fun a => by match a with | ⟨0, _⟩ => rfl | ⟨1, _⟩ => rfl) (fun k => funext fun a => by match a with | ⟨0, _⟩ => rfl | ⟨1, _⟩ => rfl)

theorem v56_mm (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S128x64, .f32⟩ : BufTy).Contents (Elt Ideal)) (x5 : (⟨S64, .f32⟩ : BufTy).Contents (Elt Ideal)) (x6 : (⟨S4x64x64, .f32⟩ : BufTy).Contents (Elt Ideal)) :
    val_main_v56 (F := Ideal) x0 x1 x2 x4 x5 x6
      = Cert.Spec.mm (val_main_v51 (F := Ideal) x0 x1 x2 x4 x5) (val_main_v53 (F := Ideal) x6) := by
  funext i
  rw [val_main_v56_apply]
  generalize val_main_v51 (F := Ideal) x0 x1 x2 x4 x5 = y0
  generalize val_main_v53 (F := Ideal) x6 = y1
  exact sum_eq_mm y0 y1 i (lidx_main_v56 i) (ridx_main_v56 i) (fun k => funext fun a => by match a with | ⟨0, _⟩ => rfl | ⟨1, _⟩ => rfl) (fun k => funext fun a => by match a with | ⟨0, _⟩ => rfl | ⟨1, _⟩ => rfl)

theorem v78_mm (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S128x64, .f32⟩ : BufTy).Contents (Elt Ideal)) (x5 : (⟨S64, .f32⟩ : BufTy).Contents (Elt Ideal)) (x6 : (⟨S4x64x64, .f32⟩ : BufTy).Contents (Elt Ideal)) (x7 : (⟨S4x64, .f32⟩ : BufTy).Contents (Elt Ideal)) :
    val_main_v78 (F := Ideal) x0 x1 x2 x4 x5 x6 x7
      = Cert.Spec.mm (val_main_v73 (F := Ideal) x0 x1 x2 x4 x5 x6 x7) (val_main_v75 (F := Ideal) x6) := by
  funext i
  rw [val_main_v78_apply]
  generalize val_main_v73 (F := Ideal) x0 x1 x2 x4 x5 x6 x7 = y0
  generalize val_main_v75 (F := Ideal) x6 = y1
  exact sum_eq_mm y0 y1 i (lidx_main_v78 i) (ridx_main_v78 i) (fun k => funext fun a => by match a with | ⟨0, _⟩ => rfl | ⟨1, _⟩ => rfl) (fun k => funext fun a => by match a with | ⟨0, _⟩ => rfl | ⟨1, _⟩ => rfl)

theorem v100_mm (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S128x64, .f32⟩ : BufTy).Contents (Elt Ideal)) (x5 : (⟨S64, .f32⟩ : BufTy).Contents (Elt Ideal)) (x6 : (⟨S4x64x64, .f32⟩ : BufTy).Contents (Elt Ideal)) (x7 : (⟨S4x64, .f32⟩ : BufTy).Contents (Elt Ideal)) :
    val_main_v100 (F := Ideal) x0 x1 x2 x4 x5 x6 x7
      = Cert.Spec.mm (val_main_v95 (F := Ideal) x0 x1 x2 x4 x5 x6 x7) (val_main_v97 (F := Ideal) x6) := by
  funext i
  rw [val_main_v100_apply]
  generalize val_main_v95 (F := Ideal) x0 x1 x2 x4 x5 x6 x7 = y0
  generalize val_main_v97 (F := Ideal) x6 = y1
  exact sum_eq_mm y0 y1 i (lidx_main_v100 i) (ridx_main_v100 i) (fun k => funext fun a => by match a with | ⟨0, _⟩ => rfl | ⟨1, _⟩ => rfl) (fun k => funext fun a => by match a with | ⟨0, _⟩ => rfl | ⟨1, _⟩ => rfl)

theorem v122_mm (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x4 : (⟨S128x64, .f32⟩ : BufTy).Contents (Elt Ideal)) (x5 : (⟨S64, .f32⟩ : BufTy).Contents (Elt Ideal)) (x6 : (⟨S4x64x64, .f32⟩ : BufTy).Contents (Elt Ideal)) (x7 : (⟨S4x64, .f32⟩ : BufTy).Contents (Elt Ideal)) :
    val_main_v122 (F := Ideal) x0 x1 x2 x4 x5 x6 x7
      = Cert.Spec.mm (val_main_v117 (F := Ideal) x0 x1 x2 x4 x5 x6 x7) (val_main_v119 (F := Ideal) x6) := by
  funext i
  rw [val_main_v122_apply]
  generalize val_main_v117 (F := Ideal) x0 x1 x2 x4 x5 x6 x7 = y0
  generalize val_main_v119 (F := Ideal) x6 = y1
  exact sum_eq_mm y0 y1 i (lidx_main_v122 i) (ridx_main_v122 i) (fun k => funext fun a => by match a with | ⟨0, _⟩ => rfl | ⟨1, _⟩ => rfl) (fun k => funext fun a => by match a with | ⟨0, _⟩ => rfl | ⟨1, _⟩ => rfl)

theorem v152_mm (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S100000, .i32⟩ : BufTy).Contents (Elt Ideal)) (x4 : (⟨S128x64, .f32⟩ : BufTy).Contents (Elt Ideal)) (x5 : (⟨S64, .f32⟩ : BufTy).Contents (Elt Ideal)) (x6 : (⟨S4x64x64, .f32⟩ : BufTy).Contents (Elt Ideal)) (x7 : (⟨S4x64, .f32⟩ : BufTy).Contents (Elt Ideal)) (x8 : (⟨S64x10, .f32⟩ : BufTy).Contents (Elt Ideal)) :
    val_main_v152 (F := Ideal) x0 x1 x2 x3 x4 x5 x6 x7 x8
      = Cert.Spec.mm (val_main_v151 (F := Ideal) x0 x1 x2 x3 x4 x5 x6 x7) x8 := by
  funext i
  rw [val_main_v152_apply]
  generalize val_main_v151 (F := Ideal) x0 x1 x2 x3 x4 x5 x6 x7 = y0
  exact sum_eq_mm y0 x8 i (lidx_main_v152 i) (ridx_main_v152 i) (fun k => funext fun a => by match a with | ⟨0, _⟩ => rfl | ⟨1, _⟩ => rfl) (fun k => funext fun a => by match a with | ⟨0, _⟩ => rfl | ⟨1, _⟩ => rfl)

end Cert.ReferenceIdeal.RefDots

end
-- ==== Proof.HostPrefix.lean ====
/-
  The host operations before the first dense layer, read against the reference's stages: from the edge index array and
  the edge weights they build the source and target lists with the self loops appended, the weighted degrees, their
  inverse square roots where positive, and the per-edge normalisation as a column; they leave every other argument as
  it was. Generic in the float instance: both sides are the same composition of the same operations. Read in two
  steps: first the lists, the weights with the self loops' ones, the positivity mask and the inverse square roots of
  the degrees; then, from those, the normalisation.
-/
import proofs.«116388_j87196426044065_1_alg».proof.Proof.Gen.KernelIdeal.Launch
import proofs.«116388_j87196426044065_1_alg».proof.Proof.Gen.ReferenceIdeal.Read
import Idealize.ShloMosaic.Lib.StableHlo.Run

noncomputable section

namespace Cert.KernelIdeal.Host

open Idealize.ShloMosaic Idealize.ShloMosaic.TcCoe Idealize.SL.Sem Idealize.ShloMosaic.StableHlo Cert.KernelIdeal Cert.KernelIdeal.Gen

variable {F : FTy → Type} [FloatOps F]
variable (Wk : Valuation τ sig (Elt F))
variable (x0 : (⟨S100000x128, .f32⟩ : BufTy).Contents (Elt F)) (x1 : (⟨S2x1600000, .i32⟩ : BufTy).Contents (Elt F)) (x2 : (⟨S1600000, .f32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S4x64x64, .f32⟩ : BufTy).Contents (Elt F)) (x7 : (⟨S4x64, .f32⟩ : BufTy).Contents (Elt F)) (x8 : (⟨S64x10, .f32⟩ : BufTy).Contents (Elt F)) (x9 : (⟨S10, .f32⟩ : BufTy).Contents (Elt F))

/-- Reads a fold of operations at the buffers that sit inside the operand list of a concatenation, one operation at a
    time (the one-pass reading does not enter such a list). -/
local macro "read_operands" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## First step: the lists, the weights, the mask and the inverse square roots -/

set_option maxHeartbeats 2000000 in
/-- The source list with the self loops appended. -/
theorem first_src (h1 : Wk (Proc.devRef .tc main_arg1) = x1) :
    StableHlo.after hostOps0 Wk (Proc.devRef .tc main_v5) = Cert.ReferenceIdeal.Read.val_main_v5 (F := F) x1 := by
  after_results_simp
  read_operands
  rw [h1]
  rfl

set_option maxHeartbeats 2000000 in
/-- The target list with the self loops appended. -/
theorem first_dst (h1 : Wk (Proc.devRef .tc main_arg1) = x1) :
    StableHlo.after hostOps0 Wk (Proc.devRef .tc main_v6) = Cert.ReferenceIdeal.Read.val_main_v6 (F := F) x1 := by
  after_results_simp
  read_operands
  rw [h1]
  rfl

set_option maxHeartbeats 2000000 in
/-- The edge weights with the self loops' ones appended. -/
theorem first_w2 (h2 : Wk (Proc.devRef .tc main_arg2) = x2) :
    StableHlo.after hostOps0 Wk (Proc.devRef .tc main_v8) = Cert.ReferenceIdeal.Read.val_main_v8 (F := F) x2 := by
  after_results_simp
  read_operands
  rw [h2]
  rfl

set_option maxHeartbeats 4000000 in
/-- Where the weighted degree is positive. -/
theorem first_pos (h1 : Wk (Proc.devRef .tc main_arg1) = x1) (h2 : Wk (Proc.devRef .tc main_arg2) = x2) :
    StableHlo.after hostOps0 Wk (Proc.devRef .tc main_v13) = Cert.ReferenceIdeal.Read.val_main_v13 (F := F) x1 x2 := by
  after_results_simp
  read_operands
  rw [h1, h2]
  rfl

set_option maxHeartbeats 4000000 in
/-- The inverse square root of the weighted degree, clamped below. -/
theorem first_rsqrt (h1 : Wk (Proc.devRef .tc main_arg1) = x1) (h2 : Wk (Proc.devRef .tc main_arg2) = x2) :
    StableHlo.after hostOps0 Wk (Proc.devRef .tc main_v16) = Cert.ReferenceIdeal.Read.val_main_v16 (F := F) x1 x2 := by
  after_results_simp
  read_operands
  rw [h1, h2]
  rfl

/-- The zero the normalisation takes where the degree is not positive. -/
theorem first_zero :
    StableHlo.after hostOps0 Wk (Proc.devRef .tc main_cst_3) = Cert.ReferenceIdeal.Read.val_main_cst_3 (F := F) := by
  after_results_simp
  rfl

/-- The arguments read later: the first step writes none of them. -/
theorem first_keep (b : Ref sig .tc) (hb : b ∈ [main_arg0, main_arg3, main_arg4, main_arg5, main_arg6, main_arg7, main_arg8, main_arg9]) :
    StableHlo.after hostOps0 Wk (Proc.devRef .tc b) = Wk (Proc.devRef .tc b) := by
  simp only [List.mem_cons, List.not_mem_nil, or_false] at hb
  rcases hb with rfl | rfl | rfl | rfl | rfl | rfl | rfl | rfl <;> after_results_simp

/-! ## Second step: the normalisation -/

/-- The second step's two groups of operations, one after the other. -/
abbrev second : Valuation τ sig (Elt F) := StableHlo.after hostOps0_2 (StableHlo.after hostOps0_1 Wk)

set_option maxHeartbeats 4000000 in
/-- The per-edge normalisation, as a column: the inverse square root of the source's degree, times the edge weight,
    times that of the target's degree. -/
theorem second_norm
    (h5 : Wk (Proc.devRef .tc main_v5) = Cert.ReferenceIdeal.Read.val_main_v5 (F := F) x1)
    (h6 : Wk (Proc.devRef .tc main_v6) = Cert.ReferenceIdeal.Read.val_main_v6 (F := F) x1)
    (h8 : Wk (Proc.devRef .tc main_v8) = Cert.ReferenceIdeal.Read.val_main_v8 (F := F) x2)
    (h13 : Wk (Proc.devRef .tc main_v13) = Cert.ReferenceIdeal.Read.val_main_v13 (F := F) x1 x2)
    (h16 : Wk (Proc.devRef .tc main_v16) = Cert.ReferenceIdeal.Read.val_main_v16 (F := F) x1 x2)
    (hz : Wk (Proc.devRef .tc main_cst_3) = Cert.ReferenceIdeal.Read.val_main_cst_3 (F := F)) :
    second Wk (Proc.devRef .tc main_v34) = Cert.ReferenceIdeal.Read.val_main_v42 (F := F) x1 x2 := by
  after_results_simp
  rw [h5, h6, h8, h13, h16, hz]
  rfl

/-- The buffers read later that the second step does not write. -/
theorem second_keep (b : Ref sig .tc) (hb : b ∈ [main_v5, main_v6, main_arg0, main_arg3, main_arg4, main_arg5, main_arg6, main_arg7, main_arg8, main_arg9]) :
    second Wk (Proc.devRef .tc b) = Wk (Proc.devRef .tc b) := by
  simp only [List.mem_cons, List.not_mem_nil, or_false] at hb
  rcases hb with rfl | rfl | rfl | rfl | rfl | rfl | rfl | rfl | rfl | rfl <;> after_results_simp

/-! ## The two steps together -/

/-- The prefix's three groups of operations, one after the other. -/
abbrev after0 : Valuation τ sig (Elt F) := StableHlo.after hostOps0_2 (StableHlo.after hostOps0_1 (StableHlo.after hostOps0 Wk))

theorem prefix_src (h1 : Wk (Proc.devRef .tc main_arg1) = x1) :
    after0 Wk (Proc.devRef .tc main_v5) = Cert.ReferenceIdeal.Read.val_main_v5 (F := F) x1 :=
  (second_keep (StableHlo.after hostOps0 Wk) main_v5 (by decide)).trans (first_src Wk x1 h1)

theorem prefix_dst (h1 : Wk (Proc.devRef .tc main_arg1) = x1) :
    after0 Wk (Proc.devRef .tc main_v6) = Cert.ReferenceIdeal.Read.val_main_v6 (F := F) x1 :=
  (second_keep (StableHlo.after hostOps0 Wk) main_v6 (by decide)).trans (first_dst Wk x1 h1)

theorem prefix_norm (h1 : Wk (Proc.devRef .tc main_arg1) = x1) (h2 : Wk (Proc.devRef .tc main_arg2) = x2) :
    after0 Wk (Proc.devRef .tc main_v34) = Cert.ReferenceIdeal.Read.val_main_v42 (F := F) x1 x2 :=
  second_norm (StableHlo.after hostOps0 Wk) x1 x2 (first_src Wk x1 h1) (first_dst Wk x1 h1) (first_w2 Wk x2 h2)
    (first_pos Wk x1 x2 h1 h2) (first_rsqrt Wk x1 x2 h1 h2) (first_zero Wk)

/-- The arguments read later: the prefix writes none of them. -/
theorem prefix_keep (b : Ref sig .tc) (hb : b ∈ [main_arg0, main_arg3, main_arg4, main_arg5, main_arg6, main_arg7, main_arg8, main_arg9]) :
    after0 Wk (Proc.devRef .tc b) = Wk (Proc.devRef .tc b) :=
  (second_keep (StableHlo.after hostOps0 Wk) b (by
    simp only [List.mem_cons, List.not_mem_nil, or_false] at hb ⊢
    rcases hb with rfl | rfl | rfl | rfl | rfl | rfl | rfl | rfl <;> simp)).trans (first_keep Wk b hb)

end Cert.KernelIdeal.Host

end
-- ==== Proof.HostLayer1.lean ====
/-
  The host operations between the first and the second dense layer, read against the reference's stages: from buffer
  contents that hold the reference's edge lists, edge weights and the layer's product, the stretch leaves the
  reference's next activation (gather along the source list, scale by the edge weight, scatter-add along the target
  list, add the bias, clamp at zero) and the next layer's weight and bias slices, and leaves the buffers it does not
  write as they were. Generic in the float instance: both sides are the same composition of the same operations.
-/
import proofs.«116388_j87196426044065_1_alg».proof.Proof.Gen.KernelIdeal.Launch
import proofs.«116388_j87196426044065_1_alg».proof.Proof.Gen.ReferenceIdeal.Read
import Idealize.ShloMosaic.Lib.StableHlo.Run

noncomputable section

namespace Cert.KernelIdeal.Host

open Idealize.ShloMosaic Idealize.ShloMosaic.TcCoe Idealize.SL.Sem Idealize.ShloMosaic.StableHlo Cert.KernelIdeal Cert.KernelIdeal.Gen

variable {F : FTy → Type} [FloatOps F]
variable (Wk : Valuation τ sig (Elt F))
variable (x0 : (⟨S100000x128, .f32⟩ : BufTy).Contents (Elt F)) (x1 : (⟨S2x1600000, .i32⟩ : BufTy).Contents (Elt F)) (x2 : (⟨S1600000, .f32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S4x64x64, .f32⟩ : BufTy).Contents (Elt F)) (x7 : (⟨S4x64, .f32⟩ : BufTy).Contents (Elt F)) (x8 : (⟨S64x10, .f32⟩ : BufTy).Contents (Elt F)) (x9 : (⟨S10, .f32⟩ : BufTy).Contents (Elt F))

/-- The stretch's three groups of operations, one after the other. -/
abbrev after1 : Valuation τ sig (Elt F) := StableHlo.after hostOps1_2 (StableHlo.after hostOps1_1 (StableHlo.after hostOps1 Wk))

set_option maxHeartbeats 2000000 in
/-- The activation the next dense layer reads. -/
theorem layer1_act
    (h5 : Wk (Proc.devRef .tc main_v5) = Cert.ReferenceIdeal.Read.val_main_v5 (F := F) x1)
    (h6 : Wk (Proc.devRef .tc main_v6) = Cert.ReferenceIdeal.Read.val_main_v6 (F := F) x1)
    (h34 : Wk (Proc.devRef .tc main_v34) = Cert.ReferenceIdeal.Read.val_main_v42 (F := F) x1 x2)
    (hw : Wk (Proc.devRef .tc main_v35) = Cert.ReferenceIdeal.Read.val_main_v34 (F := F) x0 x4)
    (hb : Wk (Proc.devRef .tc main_arg5) = x5) :
    after1 Wk (Proc.devRef .tc main_v51) = Cert.ReferenceIdeal.Read.val_main_v51 (F := F) x0 x1 x2 x4 x5 := by
  after_results_simp
  rw [h5, h6, h34, hw, hb]
  rfl

/-- The next layer's weight matrix: a slice of the stacked weights. -/
theorem layer1_w (h6' : Wk (Proc.devRef .tc main_arg6) = x6) :
    after1 Wk (Proc.devRef .tc main_v53) = Cert.ReferenceIdeal.Read.val_main_v53 (F := F) x6 := by
  after_results_simp
  rw [h6']
  rfl

/-- The next layer's bias: a slice of the stacked biases. -/
theorem layer1_b (h7' : Wk (Proc.devRef .tc main_arg7) = x7) :
    after1 Wk (Proc.devRef .tc main_v55) = Cert.ReferenceIdeal.Read.val_main_v55 (F := F) x7 := by
  after_results_simp
  rw [h7']
  rfl

/-- The buffers read later that the stretch does not write. -/
theorem layer1_keep (b : Ref sig .tc) (hb : b ∈ [main_arg3, main_arg6, main_arg7, main_arg8, main_arg9, main_v5, main_v6, main_v34]) :
    after1 Wk (Proc.devRef .tc b) = Wk (Proc.devRef .tc b) := by
  simp only [List.mem_cons, List.not_mem_nil, or_false] at hb
  rcases hb with rfl | rfl | rfl | rfl | rfl | rfl | rfl | rfl <;> after_results_simp

end Cert.KernelIdeal.Host

end
-- ==== Proof.HostLayer2.lean ====
/-
  The host operations between the second and the third dense layer, read against the reference's stages: from buffer
  contents that hold the reference's edge lists, edge weights and the layer's product, the stretch leaves the
  reference's next activation (gather along the source list, scale by the edge weight, scatter-add along the target
  list, add the bias, clamp at zero) and the next layer's weight and bias slices, and leaves the buffers it does not
  write as they were. Generic in the float instance: both sides are the same composition of the same operations.
-/
import proofs.«116388_j87196426044065_1_alg».proof.Proof.Gen.KernelIdeal.Launch
import proofs.«116388_j87196426044065_1_alg».proof.Proof.Gen.ReferenceIdeal.Read
import Idealize.ShloMosaic.Lib.StableHlo.Run

noncomputable section

namespace Cert.KernelIdeal.Host

open Idealize.ShloMosaic Idealize.ShloMosaic.TcCoe Idealize.SL.Sem Idealize.ShloMosaic.StableHlo Cert.KernelIdeal Cert.KernelIdeal.Gen

variable {F : FTy → Type} [FloatOps F]
variable (Wk : Valuation τ sig (Elt F))
variable (x0 : (⟨S100000x128, .f32⟩ : BufTy).Contents (Elt F)) (x1 : (⟨S2x1600000, .i32⟩ : BufTy).Contents (Elt F)) (x2 : (⟨S1600000, .f32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S4x64x64, .f32⟩ : BufTy).Contents (Elt F)) (x7 : (⟨S4x64, .f32⟩ : BufTy).Contents (Elt F)) (x8 : (⟨S64x10, .f32⟩ : BufTy).Contents (Elt F)) (x9 : (⟨S10, .f32⟩ : BufTy).Contents (Elt F))

/-- The stretch's three groups of operations, one after the other. -/
abbrev after2 : Valuation τ sig (Elt F) := StableHlo.after hostOps2_2 (StableHlo.after hostOps2_1 (StableHlo.after hostOps2 Wk))

set_option maxHeartbeats 2000000 in
/-- The activation the next dense layer reads. -/
theorem layer2_act
    (h5 : Wk (Proc.devRef .tc main_v5) = Cert.ReferenceIdeal.Read.val_main_v5 (F := F) x1)
    (h6 : Wk (Proc.devRef .tc main_v6) = Cert.ReferenceIdeal.Read.val_main_v6 (F := F) x1)
    (h34 : Wk (Proc.devRef .tc main_v34) = Cert.ReferenceIdeal.Read.val_main_v42 (F := F) x1 x2)
    (hw : Wk (Proc.devRef .tc main_v56) = Cert.ReferenceIdeal.Read.val_main_v56 (F := F) x0 x1 x2 x4 x5 x6)
    (hb : Wk (Proc.devRef .tc main_v55) = Cert.ReferenceIdeal.Read.val_main_v55 (F := F) x7) :
    after2 Wk (Proc.devRef .tc main_v72) = Cert.ReferenceIdeal.Read.val_main_v73 (F := F) x0 x1 x2 x4 x5 x6 x7 := by
  after_results_simp
  rw [h5, h6, h34, hw, hb]
  rfl

/-- The next layer's weight matrix: a slice of the stacked weights. -/
theorem layer2_w (h6' : Wk (Proc.devRef .tc main_arg6) = x6) :
    after2 Wk (Proc.devRef .tc main_v74) = Cert.ReferenceIdeal.Read.val_main_v75 (F := F) x6 := by
  after_results_simp
  rw [h6']
  rfl

/-- The next layer's bias: a slice of the stacked biases. -/
theorem layer2_b (h7' : Wk (Proc.devRef .tc main_arg7) = x7) :
    after2 Wk (Proc.devRef .tc main_v76) = Cert.ReferenceIdeal.Read.val_main_v77 (F := F) x7 := by
  after_results_simp
  rw [h7']
  rfl

/-- The buffers read later that the stretch does not write. -/
theorem layer2_keep (b : Ref sig .tc) (hb : b ∈ [main_arg3, main_arg6, main_arg7, main_arg8, main_arg9, main_v5, main_v6, main_v34]) :
    after2 Wk (Proc.devRef .tc b) = Wk (Proc.devRef .tc b) := by
  simp only [List.mem_cons, List.not_mem_nil, or_false] at hb
  rcases hb with rfl | rfl | rfl | rfl | rfl | rfl | rfl | rfl <;> after_results_simp

end Cert.KernelIdeal.Host

end
-- ==== Proof.HostLayer3.lean ====
/-
  The host operations between the third and the fourth dense layer, read against the reference's stages: from buffer
  contents that hold the reference's edge lists, edge weights and the layer's product, the stretch leaves the
  reference's next activation (gather along the source list, scale by the edge weight, scatter-add along the target
  list, add the bias, clamp at zero) and the next layer's weight and bias slices, and leaves the buffers it does not
  write as they were. Generic in the float instance: both sides are the same composition of the same operations.
-/
import proofs.«116388_j87196426044065_1_alg».proof.Proof.Gen.KernelIdeal.Launch
import proofs.«116388_j87196426044065_1_alg».proof.Proof.Gen.ReferenceIdeal.Read
import Idealize.ShloMosaic.Lib.StableHlo.Run

noncomputable section

namespace Cert.KernelIdeal.Host

open Idealize.ShloMosaic Idealize.ShloMosaic.TcCoe Idealize.SL.Sem Idealize.ShloMosaic.StableHlo Cert.KernelIdeal Cert.KernelIdeal.Gen

variable {F : FTy → Type} [FloatOps F]
variable (Wk : Valuation τ sig (Elt F))
variable (x0 : (⟨S100000x128, .f32⟩ : BufTy).Contents (Elt F)) (x1 : (⟨S2x1600000, .i32⟩ : BufTy).Contents (Elt F)) (x2 : (⟨S1600000, .f32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S4x64x64, .f32⟩ : BufTy).Contents (Elt F)) (x7 : (⟨S4x64, .f32⟩ : BufTy).Contents (Elt F)) (x8 : (⟨S64x10, .f32⟩ : BufTy).Contents (Elt F)) (x9 : (⟨S10, .f32⟩ : BufTy).Contents (Elt F))

/-- The stretch's three groups of operations, one after the other. -/
abbrev after3 : Valuation τ sig (Elt F) := StableHlo.after hostOps3_2 (StableHlo.after hostOps3_1 (StableHlo.after hostOps3 Wk))

set_option maxHeartbeats 2000000 in
/-- The activation the next dense layer reads. -/
theorem layer3_act
    (h5 : Wk (Proc.devRef .tc main_v5) = Cert.ReferenceIdeal.Read.val_main_v5 (F := F) x1)
    (h6 : Wk (Proc.devRef .tc main_v6) = Cert.ReferenceIdeal.Read.val_main_v6 (F := F) x1)
    (h34 : Wk (Proc.devRef .tc main_v34) = Cert.ReferenceIdeal.Read.val_main_v42 (F := F) x1 x2)
    (hw : Wk (Proc.devRef .tc main_v77) = Cert.ReferenceIdeal.Read.val_main_v78 (F := F) x0 x1 x2 x4 x5 x6 x7)
    (hb : Wk (Proc.devRef .tc main_v76) = Cert.ReferenceIdeal.Read.val_main_v77 (F := F) x7) :
    after3 Wk (Proc.devRef .tc main_v93) = Cert.ReferenceIdeal.Read.val_main_v95 (F := F) x0 x1 x2 x4 x5 x6 x7 := by
  after_results_simp
  rw [h5, h6, h34, hw, hb]
  rfl

/-- The next layer's weight matrix: a slice of the stacked weights. -/
theorem layer3_w (h6' : Wk (Proc.devRef .tc main_arg6) = x6) :
    after3 Wk (Proc.devRef .tc main_v95) = Cert.ReferenceIdeal.Read.val_main_v97 (F := F) x6 := by
  after_results_simp
  rw [h6']
  rfl

/-- The next layer's bias: a slice of the stacked biases. -/
theorem layer3_b (h7' : Wk (Proc.devRef .tc main_arg7) = x7) :
    after3 Wk (Proc.devRef .tc main_v97) = Cert.ReferenceIdeal.Read.val_main_v99 (F := F) x7 := by
  after_results_simp
  rw [h7']
  rfl

/-- The buffers read later that the stretch does not write. -/
theorem layer3_keep (b : Ref sig .tc) (hb : b ∈ [main_arg3, main_arg6, main_arg7, main_arg8, main_arg9, main_v5, main_v6, main_v34]) :
    after3 Wk (Proc.devRef .tc b) = Wk (Proc.devRef .tc b) := by
  simp only [List.mem_cons, List.not_mem_nil, or_false] at hb
  rcases hb with rfl | rfl | rfl | rfl | rfl | rfl | rfl | rfl <;> after_results_simp

end Cert.KernelIdeal.Host

end
-- ==== Proof.HostLayer4.lean ====
/-
  The host operations between the fourth and the fifth dense layer, read against the reference's stages: from buffer
  contents that hold the reference's edge lists, edge weights and the layer's product, the stretch leaves the
  reference's next activation (gather along the source list, scale by the edge weight, scatter-add along the target
  list, add the bias, clamp at zero) and the next layer's weight and bias slices, and leaves the buffers it does not
  write as they were. Generic in the float instance: both sides are the same composition of the same operations.
-/
import proofs.«116388_j87196426044065_1_alg».proof.Proof.Gen.KernelIdeal.Launch
import proofs.«116388_j87196426044065_1_alg».proof.Proof.Gen.ReferenceIdeal.Read
import Idealize.ShloMosaic.Lib.StableHlo.Run

noncomputable section

namespace Cert.KernelIdeal.Host

open Idealize.ShloMosaic Idealize.ShloMosaic.TcCoe Idealize.SL.Sem Idealize.ShloMosaic.StableHlo Cert.KernelIdeal Cert.KernelIdeal.Gen

variable {F : FTy → Type} [FloatOps F]
variable (Wk : Valuation τ sig (Elt F))
variable (x0 : (⟨S100000x128, .f32⟩ : BufTy).Contents (Elt F)) (x1 : (⟨S2x1600000, .i32⟩ : BufTy).Contents (Elt F)) (x2 : (⟨S1600000, .f32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S4x64x64, .f32⟩ : BufTy).Contents (Elt F)) (x7 : (⟨S4x64, .f32⟩ : BufTy).Contents (Elt F)) (x8 : (⟨S64x10, .f32⟩ : BufTy).Contents (Elt F)) (x9 : (⟨S10, .f32⟩ : BufTy).Contents (Elt F))

/-- The stretch's three groups of operations, one after the other. -/
abbrev after4 : Valuation τ sig (Elt F) := StableHlo.after hostOps4_2 (StableHlo.after hostOps4_1 (StableHlo.after hostOps4 Wk))

set_option maxHeartbeats 2000000 in
/-- The activation the next dense layer reads. -/
theorem layer4_act
    (h5 : Wk (Proc.devRef .tc main_v5) = Cert.ReferenceIdeal.Read.val_main_v5 (F := F) x1)
    (h6 : Wk (Proc.devRef .tc main_v6) = Cert.ReferenceIdeal.Read.val_main_v6 (F := F) x1)
    (h34 : Wk (Proc.devRef .tc main_v34) = Cert.ReferenceIdeal.Read.val_main_v42 (F := F) x1 x2)
    (hw : Wk (Proc.devRef .tc main_v98) = Cert.ReferenceIdeal.Read.val_main_v100 (F := F) x0 x1 x2 x4 x5 x6 x7)
    (hb : Wk (Proc.devRef .tc main_v97) = Cert.ReferenceIdeal.Read.val_main_v99 (F := F) x7) :
    after4 Wk (Proc.devRef .tc main_v114) = Cert.ReferenceIdeal.Read.val_main_v117 (F := F) x0 x1 x2 x4 x5 x6 x7 := by
  after_results_simp
  rw [h5, h6, h34, hw, hb]
  rfl

/-- The next layer's weight matrix: a slice of the stacked weights. -/
theorem layer4_w (h6' : Wk (Proc.devRef .tc main_arg6) = x6) :
    after4 Wk (Proc.devRef .tc main_v116) = Cert.ReferenceIdeal.Read.val_main_v119 (F := F) x6 := by
  after_results_simp
  rw [h6']
  rfl

/-- The next layer's bias: a slice of the stacked biases. -/
theorem layer4_b (h7' : Wk (Proc.devRef .tc main_arg7) = x7) :
    after4 Wk (Proc.devRef .tc main_v118) = Cert.ReferenceIdeal.Read.val_main_v121 (F := F) x7 := by
  after_results_simp
  rw [h7']
  rfl

/-- The buffers read later that the stretch does not write. -/
theorem layer4_keep (b : Ref sig .tc) (hb : b ∈ [main_arg3, main_arg8, main_arg9, main_v5, main_v6, main_v34]) :
    after4 Wk (Proc.devRef .tc b) = Wk (Proc.devRef .tc b) := by
  simp only [List.mem_cons, List.not_mem_nil, or_false] at hb
  rcases hb with rfl | rfl | rfl | rfl | rfl | rfl <;> after_results_simp

end Cert.KernelIdeal.Host

end
-- ==== Proof.HostLayer5.lean ====
/-
  The host operations between the fifth dense layer and the output layer, read against the reference's stages: the last
  graph convolution's aggregation, bias and clamp, then the mean over each graph's nodes (a scatter-add of the
  activations and of ones along the graph ids, the count clamped below by one, the quotient). Generic in the float
  instance: both sides are the same composition of the same operations.
-/
import proofs.«116388_j87196426044065_1_alg».proof.Proof.Gen.KernelIdeal.Launch
import proofs.«116388_j87196426044065_1_alg».proof.Proof.Gen.ReferenceIdeal.Read
import Idealize.ShloMosaic.Lib.StableHlo.Run

noncomputable section

namespace Cert.KernelIdeal.Host

open Idealize.ShloMosaic Idealize.ShloMosaic.TcCoe Idealize.SL.Sem Idealize.ShloMosaic.StableHlo Cert.KernelIdeal Cert.KernelIdeal.Gen

variable {F : FTy → Type} [FloatOps F]
variable (Wk : Valuation τ sig (Elt F))
variable (x0 : (⟨S100000x128, .f32⟩ : BufTy).Contents (Elt F)) (x1 : (⟨S2x1600000, .i32⟩ : BufTy).Contents (Elt F)) (x2 : (⟨S1600000, .f32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S4x64x64, .f32⟩ : BufTy).Contents (Elt F)) (x7 : (⟨S4x64, .f32⟩ : BufTy).Contents (Elt F)) (x8 : (⟨S64x10, .f32⟩ : BufTy).Contents (Elt F)) (x9 : (⟨S10, .f32⟩ : BufTy).Contents (Elt F))

/-- The stretch's three groups of operations, one after the other. -/
abbrev after5 : Valuation τ sig (Elt F) := StableHlo.after hostOps5_2 (StableHlo.after hostOps5_1 (StableHlo.after hostOps5 Wk))

set_option maxHeartbeats 4000000 in
/-- The pooled activations the output layer reads. -/
theorem layer5_pool
    (h5 : Wk (Proc.devRef .tc main_v5) = Cert.ReferenceIdeal.Read.val_main_v5 (F := F) x1)
    (h6 : Wk (Proc.devRef .tc main_v6) = Cert.ReferenceIdeal.Read.val_main_v6 (F := F) x1)
    (h34 : Wk (Proc.devRef .tc main_v34) = Cert.ReferenceIdeal.Read.val_main_v42 (F := F) x1 x2)
    (hw : Wk (Proc.devRef .tc main_v119) = Cert.ReferenceIdeal.Read.val_main_v122 (F := F) x0 x1 x2 x4 x5 x6 x7)
    (hb : Wk (Proc.devRef .tc main_v118) = Cert.ReferenceIdeal.Read.val_main_v121 (F := F) x7)
    (h3 : Wk (Proc.devRef .tc main_arg3) = x3) :
    after5 Wk (Proc.devRef .tc main_v147) = Cert.ReferenceIdeal.Read.val_main_v151 (F := F) x0 x1 x2 x3 x4 x5 x6 x7 := by
  after_results_simp
  rw [h5, h6, h34, hw, hb, h3]
  rfl

/-- The arguments read later: the stretch writes none of them. -/
theorem layer5_keep (b : Ref sig .tc) (hb : b ∈ [main_arg8, main_arg9]) :
    after5 Wk (Proc.devRef .tc b) = Wk (Proc.devRef .tc b) := by
  simp only [List.mem_cons, List.not_mem_nil, or_false] at hb
  rcases hb with rfl | rfl <;> after_results_simp

end Cert.KernelIdeal.Host

end
-- ==== Proof.HostTail.lean ====
/-
  The host operations after the output layer, read against the reference's last stage: the output bias, as a row
  broadcast over the graphs, added to the output layer's product.
-/
import proofs.«116388_j87196426044065_1_alg».proof.Proof.Gen.KernelIdeal.Launch
import proofs.«116388_j87196426044065_1_alg».proof.Proof.Gen.ReferenceIdeal.Read
import Idealize.ShloMosaic.Lib.StableHlo.Run

noncomputable section

namespace Cert.KernelIdeal.Host

open Idealize.ShloMosaic Idealize.ShloMosaic.TcCoe Idealize.SL.Sem Idealize.ShloMosaic.StableHlo Cert.KernelIdeal Cert.KernelIdeal.Gen

variable {F : FTy → Type} [FloatOps F]
variable (Wk : Valuation τ sig (Elt F))
variable (x0 : (⟨S100000x128, .f32⟩ : BufTy).Contents (Elt F)) (x1 : (⟨S2x1600000, .i32⟩ : BufTy).Contents (Elt F)) (x2 : (⟨S1600000, .f32⟩ : BufTy).Contents (Elt F)) (x3 : (⟨S100000, .i32⟩ : BufTy).Contents (Elt F)) (x4 : (⟨S128x64, .f32⟩ : BufTy).Contents (Elt F)) (x5 : (⟨S64, .f32⟩ : BufTy).Contents (Elt F)) (x6 : (⟨S4x64x64, .f32⟩ : BufTy).Contents (Elt F)) (x7 : (⟨S4x64, .f32⟩ : BufTy).Contents (Elt F)) (x8 : (⟨S64x10, .f32⟩ : BufTy).Contents (Elt F)) (x9 : (⟨S10, .f32⟩ : BufTy).Contents (Elt F))

/-- The result: the product plus the bias row. -/
theorem tail_out
    (hw : Wk (Proc.devRef .tc main_v148) = Cert.ReferenceIdeal.Read.val_main_v152 (F := F) x0 x1 x2 x3 x4 x5 x6 x7 x8)
    (h9 : Wk (Proc.devRef .tc main_arg9) = x9) :
    StableHlo.after hostOps6 Wk (Proc.devRef .tc main_v151) = Cert.ReferenceIdeal.Read.val_main_v155 (F := F) x0 x1 x2 x3 x4 x5 x6 x7 x8 x9 := by
  after_results_simp
  rw [hw, h9]
  rfl

end Cert.KernelIdeal.Host

end
-- ==== Proof.Chain.lean ====
/-
  The kernel program read from the launch to the return, at the extended reals: at every boundary between a stretch of
  host operations and a dense layer, each buffer that is read later holds the reference's corresponding stage of the
  launch arguments. A stretch of host operations is the reference's own composition of operations; a dense layer's
  output array is the product of the two arrays it read, which is what the reference's `dot_general` of the same two
  stages is; buffers a segment does not write keep what they held. The last boundary gives the result.
-/
import proofs.«116388_j87196426044065_1_alg».proof.Proof.Gen.KernelIdeal.Frame
import proofs.«116388_j87196426044065_1_alg».proof.Proof.Gen.ReferenceIdeal.Read
import proofs.«116388_j87196426044065_1_alg».proof.Proof.RegionVal
import proofs.«116388_j87196426044065_1_alg».proof.Proof.RefDots
import proofs.«116388_j87196426044065_1_alg».proof.Proof.HostPrefix
import proofs.«116388_j87196426044065_1_alg».proof.Proof.HostLayer1
import proofs.«116388_j87196426044065_1_alg».proof.Proof.HostLayer2
import proofs.«116388_j87196426044065_1_alg».proof.Proof.HostLayer3
import proofs.«116388_j87196426044065_1_alg».proof.Proof.HostLayer4
import proofs.«116388_j87196426044065_1_alg».proof.Proof.HostLayer5
import proofs.«116388_j87196426044065_1_alg».proof.Proof.HostTail

set_option maxRecDepth 16384

noncomputable section

namespace Cert.KernelIdeal.Chain

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

theorem E0_src : W3 m ρ c (Proc.devRef .tc main_v5) = Cert.ReferenceIdeal.Read.val_main_v5 (F := Ideal) (m ((c : Thread nD τ).loc main_arg1)) :=
  Host.prefix_src (W0 m ρ c) _ rfl

theorem E0_dst : W3 m ρ c (Proc.devRef .tc main_v6) = Cert.ReferenceIdeal.Read.val_main_v6 (F := Ideal) (m ((c : Thread nD τ).loc main_arg1)) :=
  Host.prefix_dst (W0 m ρ c) _ rfl

theorem E0_norm : W3 m ρ c (Proc.devRef .tc main_v34) = Cert.ReferenceIdeal.Read.val_main_v42 (F := Ideal) (m ((c : Thread nD τ).loc main_arg1)) (m ((c : Thread nD τ).loc main_arg2)) :=
  Host.prefix_norm (W0 m ρ c) _ _ rfl rfl

theorem E0_arg0 : W3 m ρ c (Proc.devRef .tc main_arg0) = (m ((c : Thread nD τ).loc main_arg0)) :=
  Host.prefix_keep (W0 m ρ c) main_arg0 (by decide)

theorem E0_arg3 : W3 m ρ c (Proc.devRef .tc main_arg3) = (m ((c : Thread nD τ).loc main_arg3)) :=
  Host.prefix_keep (W0 m ρ c) main_arg3 (by decide)

theorem E0_arg4 : W3 m ρ c (Proc.devRef .tc main_arg4) = (m ((c : Thread nD τ).loc main_arg4)) :=
  Host.prefix_keep (W0 m ρ c) main_arg4 (by decide)

theorem E0_arg5 : W3 m ρ c (Proc.devRef .tc main_arg5) = (m ((c : Thread nD τ).loc main_arg5)) :=
  Host.prefix_keep (W0 m ρ c) main_arg5 (by decide)

theorem E0_arg6 : W3 m ρ c (Proc.devRef .tc main_arg6) = (m ((c : Thread nD τ).loc main_arg6)) :=
  Host.prefix_keep (W0 m ρ c) main_arg6 (by decide)

theorem E0_arg7 : W3 m ρ c (Proc.devRef .tc main_arg7) = (m ((c : Thread nD τ).loc main_arg7)) :=
  Host.prefix_keep (W0 m ρ c) main_arg7 (by decide)

theorem E0_arg8 : W3 m ρ c (Proc.devRef .tc main_arg8) = (m ((c : Thread nD τ).loc main_arg8)) :=
  Host.prefix_keep (W0 m ρ c) main_arg8 (by decide)

theorem E0_arg9 : W3 m ρ c (Proc.devRef .tc main_arg9) = (m ((c : Thread nD τ).loc main_arg9)) :=
  Host.prefix_keep (W0 m ρ c) main_arg9 (by decide)

/-- Dense layer 0: the output array is the product of the two arrays the layer read, which hold the reference's stages. -/
theorem X0_hw : W4 m ρ c (Proc.devRef .tc main_v35) = Cert.ReferenceIdeal.Read.val_main_v34 (F := Ideal) (m ((c : Thread nD τ).loc main_arg0)) (m ((c : Thread nD τ).loc main_arg4)) :=
  (W4_arr m ρ c 2).trans ((RegionVal.region0 (V3 m ρ) c).trans
    ((congrArg₂ Cert.Spec.mm (E0_arg0 m ρ c) (E0_arg4 m ρ c)).trans (Cert.ReferenceIdeal.RefDots.v34_mm (m ((c : Thread nD τ).loc main_arg0)) (m ((c : Thread nD τ).loc main_arg4))).symm))

theorem X0_src : W4 m ρ c (Proc.devRef .tc main_v5) = Cert.ReferenceIdeal.Read.val_main_v5 (F := Ideal) (m ((c : Thread nD τ).loc main_arg1)) :=
  (W4_of_ne m ρ c main_v5 (by decide)).trans (E0_src m ρ c)

theorem X0_dst : W4 m ρ c (Proc.devRef .tc main_v6) = Cert.ReferenceIdeal.Read.val_main_v6 (F := Ideal) (m ((c : Thread nD τ).loc main_arg1)) :=
  (W4_of_ne m ρ c main_v6 (by decide)).trans (E0_dst m ρ c)

theorem X0_norm : W4 m ρ c (Proc.devRef .tc main_v34) = Cert.ReferenceIdeal.Read.val_main_v42 (F := Ideal) (m ((c : Thread nD τ).loc main_arg1)) (m ((c : Thread nD τ).loc main_arg2)) :=
  (W4_of_ne m ρ c main_v34 (by decide)).trans (E0_norm m ρ c)

theorem X0_arg3 : W4 m ρ c (Proc.devRef .tc main_arg3) = (m ((c : Thread nD τ).loc main_arg3)) :=
  (W4_of_ne m ρ c main_arg3 (by decide)).trans (E0_arg3 m ρ c)

theorem X0_arg5 : W4 m ρ c (Proc.devRef .tc main_arg5) = (m ((c : Thread nD τ).loc main_arg5)) :=
  (W4_of_ne m ρ c main_arg5 (by decide)).trans (E0_arg5 m ρ c)

theorem X0_arg6 : W4 m ρ c (Proc.devRef .tc main_arg6) = (m ((c : Thread nD τ).loc main_arg6)) :=
  (W4_of_ne m ρ c main_arg6 (by decide)).trans (E0_arg6 m ρ c)

theorem X0_arg7 : W4 m ρ c (Proc.devRef .tc main_arg7) = (m ((c : Thread nD τ).loc main_arg7)) :=
  (W4_of_ne m ρ c main_arg7 (by decide)).trans (E0_arg7 m ρ c)

theorem X0_arg8 : W4 m ρ c (Proc.devRef .tc main_arg8) = (m ((c : Thread nD τ).loc main_arg8)) :=
  (W4_of_ne m ρ c main_arg8 (by decide)).trans (E0_arg8 m ρ c)

theorem X0_arg9 : W4 m ρ c (Proc.devRef .tc main_arg9) = (m ((c : Thread nD τ).loc main_arg9)) :=
  (W4_of_ne m ρ c main_arg9 (by decide)).trans (E0_arg9 m ρ c)

theorem E1_act : W7 m ρ c (Proc.devRef .tc main_v51) = Cert.ReferenceIdeal.Read.val_main_v51 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  Host.layer1_act _ _ _ _ _ _ (X0_src m ρ c) (X0_dst m ρ c) (X0_norm m ρ c) (X0_hw m ρ c) (X0_arg5 m ρ c)

theorem E1_w : W7 m ρ c (Proc.devRef .tc main_v53) = Cert.ReferenceIdeal.Read.val_main_v53 (F := Ideal) (m ((c : Thread nD τ).loc main_arg6)) :=
  Host.layer1_w _ _ (X0_arg6 m ρ c)

theorem E1_b : W7 m ρ c (Proc.devRef .tc main_v55) = Cert.ReferenceIdeal.Read.val_main_v55 (F := Ideal) (m ((c : Thread nD τ).loc main_arg7)) :=
  Host.layer1_b _ _ (X0_arg7 m ρ c)

theorem E1_src : W7 m ρ c (Proc.devRef .tc main_v5) = Cert.ReferenceIdeal.Read.val_main_v5 (F := Ideal) (m ((c : Thread nD τ).loc main_arg1)) :=
  (Host.layer1_keep (W4 m ρ c) main_v5 (by decide)).trans (X0_src m ρ c)

theorem E1_dst : W7 m ρ c (Proc.devRef .tc main_v6) = Cert.ReferenceIdeal.Read.val_main_v6 (F := Ideal) (m ((c : Thread nD τ).loc main_arg1)) :=
  (Host.layer1_keep (W4 m ρ c) main_v6 (by decide)).trans (X0_dst m ρ c)

theorem E1_norm : W7 m ρ c (Proc.devRef .tc main_v34) = Cert.ReferenceIdeal.Read.val_main_v42 (F := Ideal) (m ((c : Thread nD τ).loc main_arg1)) (m ((c : Thread nD τ).loc main_arg2)) :=
  (Host.layer1_keep (W4 m ρ c) main_v34 (by decide)).trans (X0_norm m ρ c)

theorem E1_arg3 : W7 m ρ c (Proc.devRef .tc main_arg3) = (m ((c : Thread nD τ).loc main_arg3)) :=
  (Host.layer1_keep (W4 m ρ c) main_arg3 (by decide)).trans (X0_arg3 m ρ c)

theorem E1_arg6 : W7 m ρ c (Proc.devRef .tc main_arg6) = (m ((c : Thread nD τ).loc main_arg6)) :=
  (Host.layer1_keep (W4 m ρ c) main_arg6 (by decide)).trans (X0_arg6 m ρ c)

theorem E1_arg7 : W7 m ρ c (Proc.devRef .tc main_arg7) = (m ((c : Thread nD τ).loc main_arg7)) :=
  (Host.layer1_keep (W4 m ρ c) main_arg7 (by decide)).trans (X0_arg7 m ρ c)

theorem E1_arg8 : W7 m ρ c (Proc.devRef .tc main_arg8) = (m ((c : Thread nD τ).loc main_arg8)) :=
  (Host.layer1_keep (W4 m ρ c) main_arg8 (by decide)).trans (X0_arg8 m ρ c)

theorem E1_arg9 : W7 m ρ c (Proc.devRef .tc main_arg9) = (m ((c : Thread nD τ).loc main_arg9)) :=
  (Host.layer1_keep (W4 m ρ c) main_arg9 (by decide)).trans (X0_arg9 m ρ c)

/-- Dense layer 1: the output array is the product of the two arrays the layer read, which hold the reference's stages. -/
theorem X1_hw : W8 m ρ c (Proc.devRef .tc main_v56) = Cert.ReferenceIdeal.Read.val_main_v56 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W8_arr m ρ c 2).trans ((RegionVal.region1 (V7 m ρ) c).trans
    ((congrArg₂ Cert.Spec.mm (E1_act m ρ c) (E1_w m ρ c)).trans (Cert.ReferenceIdeal.RefDots.v56_mm (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))).symm))

theorem X1_src : W8 m ρ c (Proc.devRef .tc main_v5) = Cert.ReferenceIdeal.Read.val_main_v5 (F := Ideal) (m ((c : Thread nD τ).loc main_arg1)) :=
  (W8_of_ne m ρ c main_v5 (by decide)).trans (E1_src m ρ c)

theorem X1_dst : W8 m ρ c (Proc.devRef .tc main_v6) = Cert.ReferenceIdeal.Read.val_main_v6 (F := Ideal) (m ((c : Thread nD τ).loc main_arg1)) :=
  (W8_of_ne m ρ c main_v6 (by decide)).trans (E1_dst m ρ c)

theorem X1_norm : W8 m ρ c (Proc.devRef .tc main_v34) = Cert.ReferenceIdeal.Read.val_main_v42 (F := Ideal) (m ((c : Thread nD τ).loc main_arg1)) (m ((c : Thread nD τ).loc main_arg2)) :=
  (W8_of_ne m ρ c main_v34 (by decide)).trans (E1_norm m ρ c)

theorem X1_b : W8 m ρ c (Proc.devRef .tc main_v55) = Cert.ReferenceIdeal.Read.val_main_v55 (F := Ideal) (m ((c : Thread nD τ).loc main_arg7)) :=
  (W8_of_ne m ρ c main_v55 (by decide)).trans (E1_b m ρ c)

theorem X1_arg3 : W8 m ρ c (Proc.devRef .tc main_arg3) = (m ((c : Thread nD τ).loc main_arg3)) :=
  (W8_of_ne m ρ c main_arg3 (by decide)).trans (E1_arg3 m ρ c)

theorem X1_arg6 : W8 m ρ c (Proc.devRef .tc main_arg6) = (m ((c : Thread nD τ).loc main_arg6)) :=
  (W8_of_ne m ρ c main_arg6 (by decide)).trans (E1_arg6 m ρ c)

theorem X1_arg7 : W8 m ρ c (Proc.devRef .tc main_arg7) = (m ((c : Thread nD τ).loc main_arg7)) :=
  (W8_of_ne m ρ c main_arg7 (by decide)).trans (E1_arg7 m ρ c)

theorem X1_arg8 : W8 m ρ c (Proc.devRef .tc main_arg8) = (m ((c : Thread nD τ).loc main_arg8)) :=
  (W8_of_ne m ρ c main_arg8 (by decide)).trans (E1_arg8 m ρ c)

theorem X1_arg9 : W8 m ρ c (Proc.devRef .tc main_arg9) = (m ((c : Thread nD τ).loc main_arg9)) :=
  (W8_of_ne m ρ c main_arg9 (by decide)).trans (E1_arg9 m ρ c)

theorem E2_act : W11 m ρ c (Proc.devRef .tc main_v72) = Cert.ReferenceIdeal.Read.val_main_v73 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  Host.layer2_act _ _ _ _ _ _ _ _ (X1_src m ρ c) (X1_dst m ρ c) (X1_norm m ρ c) (X1_hw m ρ c) (X1_b m ρ c)

theorem E2_w : W11 m ρ c (Proc.devRef .tc main_v74) = Cert.ReferenceIdeal.Read.val_main_v75 (F := Ideal) (m ((c : Thread nD τ).loc main_arg6)) :=
  Host.layer2_w _ _ (X1_arg6 m ρ c)

theorem E2_b : W11 m ρ c (Proc.devRef .tc main_v76) = Cert.ReferenceIdeal.Read.val_main_v77 (F := Ideal) (m ((c : Thread nD τ).loc main_arg7)) :=
  Host.layer2_b _ _ (X1_arg7 m ρ c)

theorem E2_src : W11 m ρ c (Proc.devRef .tc main_v5) = Cert.ReferenceIdeal.Read.val_main_v5 (F := Ideal) (m ((c : Thread nD τ).loc main_arg1)) :=
  (Host.layer2_keep (W8 m ρ c) main_v5 (by decide)).trans (X1_src m ρ c)

theorem E2_dst : W11 m ρ c (Proc.devRef .tc main_v6) = Cert.ReferenceIdeal.Read.val_main_v6 (F := Ideal) (m ((c : Thread nD τ).loc main_arg1)) :=
  (Host.layer2_keep (W8 m ρ c) main_v6 (by decide)).trans (X1_dst m ρ c)

theorem E2_norm : W11 m ρ c (Proc.devRef .tc main_v34) = Cert.ReferenceIdeal.Read.val_main_v42 (F := Ideal) (m ((c : Thread nD τ).loc main_arg1)) (m ((c : Thread nD τ).loc main_arg2)) :=
  (Host.layer2_keep (W8 m ρ c) main_v34 (by decide)).trans (X1_norm m ρ c)

theorem E2_arg3 : W11 m ρ c (Proc.devRef .tc main_arg3) = (m ((c : Thread nD τ).loc main_arg3)) :=
  (Host.layer2_keep (W8 m ρ c) main_arg3 (by decide)).trans (X1_arg3 m ρ c)

theorem E2_arg6 : W11 m ρ c (Proc.devRef .tc main_arg6) = (m ((c : Thread nD τ).loc main_arg6)) :=
  (Host.layer2_keep (W8 m ρ c) main_arg6 (by decide)).trans (X1_arg6 m ρ c)

theorem E2_arg7 : W11 m ρ c (Proc.devRef .tc main_arg7) = (m ((c : Thread nD τ).loc main_arg7)) :=
  (Host.layer2_keep (W8 m ρ c) main_arg7 (by decide)).trans (X1_arg7 m ρ c)

theorem E2_arg8 : W11 m ρ c (Proc.devRef .tc main_arg8) = (m ((c : Thread nD τ).loc main_arg8)) :=
  (Host.layer2_keep (W8 m ρ c) main_arg8 (by decide)).trans (X1_arg8 m ρ c)

theorem E2_arg9 : W11 m ρ c (Proc.devRef .tc main_arg9) = (m ((c : Thread nD τ).loc main_arg9)) :=
  (Host.layer2_keep (W8 m ρ c) main_arg9 (by decide)).trans (X1_arg9 m ρ c)

/-- Dense layer 2: the output array is the product of the two arrays the layer read, which hold the reference's stages. -/
theorem X2_hw : W12 m ρ c (Proc.devRef .tc main_v77) = Cert.ReferenceIdeal.Read.val_main_v78 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (W12_arr m ρ c 2).trans ((RegionVal.region2 (V11 m ρ) c).trans
    ((congrArg₂ Cert.Spec.mm (E2_act m ρ c) (E2_w m ρ c)).trans (Cert.ReferenceIdeal.RefDots.v78_mm (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))).symm))

theorem X2_src : W12 m ρ c (Proc.devRef .tc main_v5) = Cert.ReferenceIdeal.Read.val_main_v5 (F := Ideal) (m ((c : Thread nD τ).loc main_arg1)) :=
  (W12_of_ne m ρ c main_v5 (by decide)).trans (E2_src m ρ c)

theorem X2_dst : W12 m ρ c (Proc.devRef .tc main_v6) = Cert.ReferenceIdeal.Read.val_main_v6 (F := Ideal) (m ((c : Thread nD τ).loc main_arg1)) :=
  (W12_of_ne m ρ c main_v6 (by decide)).trans (E2_dst m ρ c)

theorem X2_norm : W12 m ρ c (Proc.devRef .tc main_v34) = Cert.ReferenceIdeal.Read.val_main_v42 (F := Ideal) (m ((c : Thread nD τ).loc main_arg1)) (m ((c : Thread nD τ).loc main_arg2)) :=
  (W12_of_ne m ρ c main_v34 (by decide)).trans (E2_norm m ρ c)

theorem X2_b : W12 m ρ c (Proc.devRef .tc main_v76) = Cert.ReferenceIdeal.Read.val_main_v77 (F := Ideal) (m ((c : Thread nD τ).loc main_arg7)) :=
  (W12_of_ne m ρ c main_v76 (by decide)).trans (E2_b m ρ c)

theorem X2_arg3 : W12 m ρ c (Proc.devRef .tc main_arg3) = (m ((c : Thread nD τ).loc main_arg3)) :=
  (W12_of_ne m ρ c main_arg3 (by decide)).trans (E2_arg3 m ρ c)

theorem X2_arg6 : W12 m ρ c (Proc.devRef .tc main_arg6) = (m ((c : Thread nD τ).loc main_arg6)) :=
  (W12_of_ne m ρ c main_arg6 (by decide)).trans (E2_arg6 m ρ c)

theorem X2_arg7 : W12 m ρ c (Proc.devRef .tc main_arg7) = (m ((c : Thread nD τ).loc main_arg7)) :=
  (W12_of_ne m ρ c main_arg7 (by decide)).trans (E2_arg7 m ρ c)

theorem X2_arg8 : W12 m ρ c (Proc.devRef .tc main_arg8) = (m ((c : Thread nD τ).loc main_arg8)) :=
  (W12_of_ne m ρ c main_arg8 (by decide)).trans (E2_arg8 m ρ c)

theorem X2_arg9 : W12 m ρ c (Proc.devRef .tc main_arg9) = (m ((c : Thread nD τ).loc main_arg9)) :=
  (W12_of_ne m ρ c main_arg9 (by decide)).trans (E2_arg9 m ρ c)

theorem E3_act : W15 m ρ c (Proc.devRef .tc main_v93) = Cert.ReferenceIdeal.Read.val_main_v95 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  Host.layer3_act _ _ _ _ _ _ _ _ (X2_src m ρ c) (X2_dst m ρ c) (X2_norm m ρ c) (X2_hw m ρ c) (X2_b m ρ c)

theorem E3_w : W15 m ρ c (Proc.devRef .tc main_v95) = Cert.ReferenceIdeal.Read.val_main_v97 (F := Ideal) (m ((c : Thread nD τ).loc main_arg6)) :=
  Host.layer3_w _ _ (X2_arg6 m ρ c)

theorem E3_b : W15 m ρ c (Proc.devRef .tc main_v97) = Cert.ReferenceIdeal.Read.val_main_v99 (F := Ideal) (m ((c : Thread nD τ).loc main_arg7)) :=
  Host.layer3_b _ _ (X2_arg7 m ρ c)

theorem E3_src : W15 m ρ c (Proc.devRef .tc main_v5) = Cert.ReferenceIdeal.Read.val_main_v5 (F := Ideal) (m ((c : Thread nD τ).loc main_arg1)) :=
  (Host.layer3_keep (W12 m ρ c) main_v5 (by decide)).trans (X2_src m ρ c)

theorem E3_dst : W15 m ρ c (Proc.devRef .tc main_v6) = Cert.ReferenceIdeal.Read.val_main_v6 (F := Ideal) (m ((c : Thread nD τ).loc main_arg1)) :=
  (Host.layer3_keep (W12 m ρ c) main_v6 (by decide)).trans (X2_dst m ρ c)

theorem E3_norm : W15 m ρ c (Proc.devRef .tc main_v34) = Cert.ReferenceIdeal.Read.val_main_v42 (F := Ideal) (m ((c : Thread nD τ).loc main_arg1)) (m ((c : Thread nD τ).loc main_arg2)) :=
  (Host.layer3_keep (W12 m ρ c) main_v34 (by decide)).trans (X2_norm m ρ c)

theorem E3_arg3 : W15 m ρ c (Proc.devRef .tc main_arg3) = (m ((c : Thread nD τ).loc main_arg3)) :=
  (Host.layer3_keep (W12 m ρ c) main_arg3 (by decide)).trans (X2_arg3 m ρ c)

theorem E3_arg6 : W15 m ρ c (Proc.devRef .tc main_arg6) = (m ((c : Thread nD τ).loc main_arg6)) :=
  (Host.layer3_keep (W12 m ρ c) main_arg6 (by decide)).trans (X2_arg6 m ρ c)

theorem E3_arg7 : W15 m ρ c (Proc.devRef .tc main_arg7) = (m ((c : Thread nD τ).loc main_arg7)) :=
  (Host.layer3_keep (W12 m ρ c) main_arg7 (by decide)).trans (X2_arg7 m ρ c)

theorem E3_arg8 : W15 m ρ c (Proc.devRef .tc main_arg8) = (m ((c : Thread nD τ).loc main_arg8)) :=
  (Host.layer3_keep (W12 m ρ c) main_arg8 (by decide)).trans (X2_arg8 m ρ c)

theorem E3_arg9 : W15 m ρ c (Proc.devRef .tc main_arg9) = (m ((c : Thread nD τ).loc main_arg9)) :=
  (Host.layer3_keep (W12 m ρ c) main_arg9 (by decide)).trans (X2_arg9 m ρ c)

/-- Dense layer 3: the output array is the product of the two arrays the layer read, which hold the reference's stages. -/
theorem X3_hw : W16 m ρ c (Proc.devRef .tc main_v98) = Cert.ReferenceIdeal.Read.val_main_v100 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (W16_arr m ρ c 2).trans ((RegionVal.region3 (V15 m ρ) c).trans
    ((congrArg₂ Cert.Spec.mm (E3_act m ρ c) (E3_w m ρ c)).trans (Cert.ReferenceIdeal.RefDots.v100_mm (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))).symm))

theorem X3_src : W16 m ρ c (Proc.devRef .tc main_v5) = Cert.ReferenceIdeal.Read.val_main_v5 (F := Ideal) (m ((c : Thread nD τ).loc main_arg1)) :=
  (W16_of_ne m ρ c main_v5 (by decide)).trans (E3_src m ρ c)

theorem X3_dst : W16 m ρ c (Proc.devRef .tc main_v6) = Cert.ReferenceIdeal.Read.val_main_v6 (F := Ideal) (m ((c : Thread nD τ).loc main_arg1)) :=
  (W16_of_ne m ρ c main_v6 (by decide)).trans (E3_dst m ρ c)

theorem X3_norm : W16 m ρ c (Proc.devRef .tc main_v34) = Cert.ReferenceIdeal.Read.val_main_v42 (F := Ideal) (m ((c : Thread nD τ).loc main_arg1)) (m ((c : Thread nD τ).loc main_arg2)) :=
  (W16_of_ne m ρ c main_v34 (by decide)).trans (E3_norm m ρ c)

theorem X3_b : W16 m ρ c (Proc.devRef .tc main_v97) = Cert.ReferenceIdeal.Read.val_main_v99 (F := Ideal) (m ((c : Thread nD τ).loc main_arg7)) :=
  (W16_of_ne m ρ c main_v97 (by decide)).trans (E3_b m ρ c)

theorem X3_arg3 : W16 m ρ c (Proc.devRef .tc main_arg3) = (m ((c : Thread nD τ).loc main_arg3)) :=
  (W16_of_ne m ρ c main_arg3 (by decide)).trans (E3_arg3 m ρ c)

theorem X3_arg6 : W16 m ρ c (Proc.devRef .tc main_arg6) = (m ((c : Thread nD τ).loc main_arg6)) :=
  (W16_of_ne m ρ c main_arg6 (by decide)).trans (E3_arg6 m ρ c)

theorem X3_arg7 : W16 m ρ c (Proc.devRef .tc main_arg7) = (m ((c : Thread nD τ).loc main_arg7)) :=
  (W16_of_ne m ρ c main_arg7 (by decide)).trans (E3_arg7 m ρ c)

theorem X3_arg8 : W16 m ρ c (Proc.devRef .tc main_arg8) = (m ((c : Thread nD τ).loc main_arg8)) :=
  (W16_of_ne m ρ c main_arg8 (by decide)).trans (E3_arg8 m ρ c)

theorem X3_arg9 : W16 m ρ c (Proc.devRef .tc main_arg9) = (m ((c : Thread nD τ).loc main_arg9)) :=
  (W16_of_ne m ρ c main_arg9 (by decide)).trans (E3_arg9 m ρ c)

theorem E4_act : W19 m ρ c (Proc.devRef .tc main_v114) = Cert.ReferenceIdeal.Read.val_main_v117 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  Host.layer4_act _ _ _ _ _ _ _ _ (X3_src m ρ c) (X3_dst m ρ c) (X3_norm m ρ c) (X3_hw m ρ c) (X3_b m ρ c)

theorem E4_w : W19 m ρ c (Proc.devRef .tc main_v116) = Cert.ReferenceIdeal.Read.val_main_v119 (F := Ideal) (m ((c : Thread nD τ).loc main_arg6)) :=
  Host.layer4_w _ _ (X3_arg6 m ρ c)

theorem E4_b : W19 m ρ c (Proc.devRef .tc main_v118) = Cert.ReferenceIdeal.Read.val_main_v121 (F := Ideal) (m ((c : Thread nD τ).loc main_arg7)) :=
  Host.layer4_b _ _ (X3_arg7 m ρ c)

theorem E4_src : W19 m ρ c (Proc.devRef .tc main_v5) = Cert.ReferenceIdeal.Read.val_main_v5 (F := Ideal) (m ((c : Thread nD τ).loc main_arg1)) :=
  (Host.layer4_keep (W16 m ρ c) main_v5 (by decide)).trans (X3_src m ρ c)

theorem E4_dst : W19 m ρ c (Proc.devRef .tc main_v6) = Cert.ReferenceIdeal.Read.val_main_v6 (F := Ideal) (m ((c : Thread nD τ).loc main_arg1)) :=
  (Host.layer4_keep (W16 m ρ c) main_v6 (by decide)).trans (X3_dst m ρ c)

theorem E4_norm : W19 m ρ c (Proc.devRef .tc main_v34) = Cert.ReferenceIdeal.Read.val_main_v42 (F := Ideal) (m ((c : Thread nD τ).loc main_arg1)) (m ((c : Thread nD τ).loc main_arg2)) :=
  (Host.layer4_keep (W16 m ρ c) main_v34 (by decide)).trans (X3_norm m ρ c)

theorem E4_arg3 : W19 m ρ c (Proc.devRef .tc main_arg3) = (m ((c : Thread nD τ).loc main_arg3)) :=
  (Host.layer4_keep (W16 m ρ c) main_arg3 (by decide)).trans (X3_arg3 m ρ c)

theorem E4_arg8 : W19 m ρ c (Proc.devRef .tc main_arg8) = (m ((c : Thread nD τ).loc main_arg8)) :=
  (Host.layer4_keep (W16 m ρ c) main_arg8 (by decide)).trans (X3_arg8 m ρ c)

theorem E4_arg9 : W19 m ρ c (Proc.devRef .tc main_arg9) = (m ((c : Thread nD τ).loc main_arg9)) :=
  (Host.layer4_keep (W16 m ρ c) main_arg9 (by decide)).trans (X3_arg9 m ρ c)

/-- Dense layer 4: the output array is the product of the two arrays the layer read, which hold the reference's stages. -/
theorem X4_hw : W20 m ρ c (Proc.devRef .tc main_v119) = Cert.ReferenceIdeal.Read.val_main_v122 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (W20_arr m ρ c 2).trans ((RegionVal.region4 (V19 m ρ) c).trans
    ((congrArg₂ Cert.Spec.mm (E4_act m ρ c) (E4_w m ρ c)).trans (Cert.ReferenceIdeal.RefDots.v122_mm (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))).symm))

theorem X4_src : W20 m ρ c (Proc.devRef .tc main_v5) = Cert.ReferenceIdeal.Read.val_main_v5 (F := Ideal) (m ((c : Thread nD τ).loc main_arg1)) :=
  (W20_of_ne m ρ c main_v5 (by decide)).trans (E4_src m ρ c)

theorem X4_dst : W20 m ρ c (Proc.devRef .tc main_v6) = Cert.ReferenceIdeal.Read.val_main_v6 (F := Ideal) (m ((c : Thread nD τ).loc main_arg1)) :=
  (W20_of_ne m ρ c main_v6 (by decide)).trans (E4_dst m ρ c)

theorem X4_norm : W20 m ρ c (Proc.devRef .tc main_v34) = Cert.ReferenceIdeal.Read.val_main_v42 (F := Ideal) (m ((c : Thread nD τ).loc main_arg1)) (m ((c : Thread nD τ).loc main_arg2)) :=
  (W20_of_ne m ρ c main_v34 (by decide)).trans (E4_norm m ρ c)

theorem X4_b : W20 m ρ c (Proc.devRef .tc main_v118) = Cert.ReferenceIdeal.Read.val_main_v121 (F := Ideal) (m ((c : Thread nD τ).loc main_arg7)) :=
  (W20_of_ne m ρ c main_v118 (by decide)).trans (E4_b m ρ c)

theorem X4_arg3 : W20 m ρ c (Proc.devRef .tc main_arg3) = (m ((c : Thread nD τ).loc main_arg3)) :=
  (W20_of_ne m ρ c main_arg3 (by decide)).trans (E4_arg3 m ρ c)

theorem X4_arg8 : W20 m ρ c (Proc.devRef .tc main_arg8) = (m ((c : Thread nD τ).loc main_arg8)) :=
  (W20_of_ne m ρ c main_arg8 (by decide)).trans (E4_arg8 m ρ c)

theorem X4_arg9 : W20 m ρ c (Proc.devRef .tc main_arg9) = (m ((c : Thread nD τ).loc main_arg9)) :=
  (W20_of_ne m ρ c main_arg9 (by decide)).trans (E4_arg9 m ρ c)

theorem E5_act : W23 m ρ c (Proc.devRef .tc main_v147) = Cert.ReferenceIdeal.Read.val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Host.layer5_pool _ _ _ _ _ _ _ _ _ (X4_src m ρ c) (X4_dst m ρ c) (X4_norm m ρ c) (X4_hw m ρ c) (X4_b m ρ c) (X4_arg3 m ρ c)

theorem E5_arg8 : W23 m ρ c (Proc.devRef .tc main_arg8) = (m ((c : Thread nD τ).loc main_arg8)) :=
  (Host.layer5_keep (W20 m ρ c) main_arg8 (by decide)).trans (X4_arg8 m ρ c)

theorem E5_arg9 : W23 m ρ c (Proc.devRef .tc main_arg9) = (m ((c : Thread nD τ).loc main_arg9)) :=
  (Host.layer5_keep (W20 m ρ c) main_arg9 (by decide)).trans (X4_arg9 m ρ c)

/-- Dense layer 5: the output array is the product of the two arrays the layer read, which hold the reference's stages. -/
theorem X5_hw : W24 m ρ c (Proc.devRef .tc main_v148) = Cert.ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W24_arr m ρ c 2).trans ((RegionVal.region5 (V23 m ρ) c).trans
    ((congrArg₂ Cert.Spec.mm (E5_act m ρ c) (E5_arg8 m ρ c)).trans (Cert.ReferenceIdeal.RefDots.v152_mm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))).symm))

theorem X5_arg9 : W24 m ρ c (Proc.devRef .tc main_arg9) = (m ((c : Thread nD τ).loc main_arg9)) :=
  (W24_of_ne m ρ c main_arg9 (by decide)).trans (E5_arg9 m ρ c)

/-- The kernel program's result buffer, at the last boundary, holds the reference's last stage of the launch arguments. -/
theorem result : W25 m ρ c (Proc.devRef .tc main_v151) = Cert.ReferenceIdeal.Read.val_main_v155 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  Host.tail_out _ _ _ _ _ _ _ _ _ _ _ (X5_hw m ρ c) (X5_arg9 m ρ c)

end Cert.KernelIdeal.Chain

end
-- ==== Proof.lean ====
/-
  The certificate of a five-layer graph convolution network with mean pooling and a linear read-out, against its jnp
  reference. The two programs run the same host operations around their dense layers (self loops appended to the edge
  lists, symmetric degree normalisation, per layer a gather along the sources, a scaling by the edge weight, a
  scatter-add along the targets, the bias and a clamp at zero; then the mean over each graph and the read-out bias);
  they differ only in the six dense products, which the kernel computes block of rows by block of rows on operands
  rounded to bf16 and the reference as one `dot_general`. On the extended reals a change of float format is the
  identity and a product accumulated from zero is the plain sum over the contracted axis, so each dense layer's output
  array is the reference's product of the same two arrays (`Proof/RegionVal.lean`, `Proof/RefDots.lean`), every stretch
  of host operations is the reference's own composition (`Proof/Host*.lean`), and the result buffers agree
  (`Proof/Chain.lean`). No law of the extended reals beyond reindexing a finite sum is used, so finiteness of the
  inputs is never opened. The idealization rewrote nothing, so `preserves` is trivial; the three frames are the
  programs' runs with the result forgotten.
-/
import proofs.«116388_j87196426044065_1_alg».proof.Defs
import proofs.«116388_j87196426044065_1_alg».proof.Proof.Gen.Kernel
import proofs.«116388_j87196426044065_1_alg».proof.Proof.Gen.Kernel.Skeleton
import proofs.«116388_j87196426044065_1_alg».proof.Proof.Gen.Kernel.Launch
import proofs.«116388_j87196426044065_1_alg».proof.Proof.Gen.Kernel.Points
import proofs.«116388_j87196426044065_1_alg».proof.Proof.Gen.Kernel.Frame
import proofs.«116388_j87196426044065_1_alg».proof.Proof.Gen.KernelIdeal
import proofs.«116388_j87196426044065_1_alg».proof.Proof.Gen.KernelIdeal.Skeleton
import proofs.«116388_j87196426044065_1_alg».proof.Proof.Gen.KernelIdeal.Launch
import proofs.«116388_j87196426044065_1_alg».proof.Proof.Gen.KernelIdeal.Points
import proofs.«116388_j87196426044065_1_alg».proof.Proof.Gen.KernelIdeal.Frame
import proofs.«116388_j87196426044065_1_alg».proof.Proof.Gen.ReferenceIdeal
import proofs.«116388_j87196426044065_1_alg».proof.Proof.Gen.Pre_finite_inputs
import proofs.«116388_j87196426044065_1_alg».proof.Proof.Gen.ReferenceIdeal.Run
import proofs.«116388_j87196426044065_1_alg».proof.Proof.Gen.ReferenceIdeal.Read
import proofs.«116388_j87196426044065_1_alg».proof.Proof.KernelRun
import proofs.«116388_j87196426044065_1_alg».proof.Proof.Chain
import Idealize.ShloMosaic.Adequacy
import Idealize.ShloMosaic.Init

noncomputable section

namespace Cert.Proof

open Idealize.ShloMosaic Idealize.ShloMosaic.TcCoe Idealize.SL.Sem

/-- Both idealized programs run, the arguments unchanged, and the reference's result — its last stage of its launch
    arguments, which agree with the kernel program's — is what the kernel program's result buffer holds at the end of
    its run. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' _ hagree
  refine ⟨fun c => Cert.KernelIdeal.Gen.W25 m ρ c (Proc.devRef .tc Cert.KernelIdeal.main_v151),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v155_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.KernelIdeal.Chain.result m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
